-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x66 : Shape := ⟨2, ![8192, 66]⟩
abbrev S4x1x128 : Shape := ⟨3, ![4, 1, 128]⟩
abbrev S2048x66 : Shape := ⟨2, ![2048, 66]⟩
abbrev S1x1x128 : Shape := ⟨3, ![1, 1, 128]⟩
abbrev S2048x1 : Shape := ⟨2, ![2048, 1]⟩
abbrev S66x2048 : Shape := ⟨2, ![66, 2048]⟩
abbrev S2048x2048 : Shape := ⟨2, ![2048, 2048]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩

abbrev nBuf : Space → Nat
  | .hbm => 23
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x66, .f32⟩
  | .hbm, ⟨15, _⟩ => ⟨S_, .f32⟩
  | .hbm, ⟨16, _⟩ => ⟨S8192x64, .f32⟩
  | .hbm, ⟨17, _⟩ => ⟨S8192x64, .f32⟩
  | .hbm, ⟨18, _⟩ => ⟨S8192x66, .f32⟩
  | .hbm, ⟨19, _⟩ => ⟨S4x1x128, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S2048x66, .f32⟩
  | .local _ .vmem, ⟨1, _⟩ => ⟨S2048x66, .f32⟩
  | .local _ .vmem, ⟨2, _⟩ => ⟨S2048x66, .f32⟩
  | .local _ .vmem, ⟨3, _⟩ => ⟨S2048x66, .f32⟩
  | .local _ .vmem, ⟨4, _⟩ => ⟨S1x1x128, .f32⟩
  | .local _ .vmem, ⟨5, _⟩ => ⟨S1x1x128, .f32⟩
  | .local _ .vmem, ⟨6, _⟩ => ⟨S2048x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x66 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  concatenates_S8192x64_S8192x1_S8192x1_S8192x66_d1 : Shape.Concatenates [S8192x64, S8192x1, S8192x1] S8192x66 1
  bcast_S_S8192x64 : S_.BroadcastsInDim S8192x64 (![] : Fin 0 → Fin S8192x64.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x66_S2048x66_0_0 : ∀ a, (![0, 0] : Fin 2 → Nat) a + S2048x66.size a ≤ S2048x66.size a
  h_S2048x66 : 0 < S2048x66.numel
  shapeCasts_S2048x66_S2048x66 : S2048x66.ShapeCasts S2048x66
  transposes_S2048x66_p1_0_S66x2048 : S2048x66.Transposes [1, 0] S66x2048
  reduces_S2048x2048_S2048 : S2048x2048.Reduces [1] S2048
  shapeCasts_S2048_S2048x1 : S2048.ShapeCasts S2048x1
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  reducesTo_S4x1x128_S_d0_1_2 : S4x1x128.ReducesTo [0, 1, 2] S_
  dot_S2048x66_S66x2048_S2048x2048_1_0_0_1_n_n_wf : DotDims.WF S2048x66 S66x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x66.size a ≤ S8192x66.size a
  hwx0_0 : ∀ i : grid0.Coords, EltTy.bits .f32 = 32 ∨ (Rect.block (s := S8192x66) S2048x66.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x66.size a ≤ S8192x66.size a
  hwx0_1 : ∀ i : grid0.Coords, EltTy.bits .f32 = 32 ∨ (Rect.block (s := S8192x66) S2048x66.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S2048x66_S66x2048_S2048x2048_1_0_0_1_n_n : DotDims S2048x66 S66x2048 S2048x2048 where
  lhsContracting := [1]
  rhsContracting := [0]
  lhsNonContracting := [0]
  rhsNonContracting := [1]
  lhsBatch := []
  rhsBatch := []
  wf := dot_S2048x66_S66x2048_S2048x2048_1_0_0_1_n_n_wf

abbrev win0_0 : Pipeline.Window sig grid0 :=
  Pipeline.Window.ofSpec (Memref.whole main_v8) S2048x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x66.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.BaseK.lean ====
/-
  The launch of the one kernel region around its host lines, and what the kernel's body is stated over.
  @main is seventeen host operations (the two augmented operand arrays are built there), the region on a 4 × 4 grid,
  and three host operations after it. Here: the arrays as the region finds them, that the lines before the region
  write neither argument, the lines after it write no array of the region, each input window's block at a grid
  point, the two conditions of the body decided over the grid (the reduction coordinate is 0: the points
  ≡ 0 mod 4; it is 3: the points ≡ 3 mod 4), and where the output window is idle.
-/
import proofs.«156121_j21388937134644_2_alg».proof.Proof.Gen.Kernel.Launch
import proofs.«156121_j21388937134644_2_alg».proof.Proof.Gen.Kernel.Skeleton
import proofs.«156121_j21388937134644_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the seventeen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the three later lines, holding the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region: each writes only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, Finset.mem_singleton] <;> exact StableHlo.devRef_ne_of_ne (by decide)

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- A buffer that is no array of the region and that the three later lines do not write ends at its region-entry
    contents. -/
theorem tail_keeps {U' : Type} [URA U'] (dats : (p : Fin 1) → (c : Dev nD) → Dat τ (Elt F) Unit ℕ U' ℕ (cfgs p) c) (c : Dev nD) (b : Ref sig .tc)
    (harr : ∀ w, Pipeline.arrRef spec0 w ≠ b)
    (hw : ∀ op ∈ (hostOps1 : List (HloOp τ sig (Elt F))), Proc.devRef .tc b ∉ op.writes) :
    Pipeline.afterTail₀ cfgs dats 0 (V0 m) [hostOps1] c b = V m c b := by
  unfold Pipeline.afterTail₀
  rw [StableHlo.after_of_forall_not_mem _ _ (by
    intro op hop; rw [List.flatten_cons, List.flatten_nil, List.append_nil] at hop; exact hw op hop)]
  exact Pipeline.withArrays_of_ne _ c (V0 m c) _ b harr

theorem tail_arg0 {U' : Type} [URA U'] (dats : (p : Fin 1) → (c : Dev nD) → Dat τ (Elt F) Unit ℕ U' ℕ (cfgs p) c) (c : Dev nD) :
    Pipeline.afterTail₀ cfgs dats 0 (V0 m) [hostOps1] c main_arg0 = V m c main_arg0 :=
  tail_keeps m dats c main_arg0 (by decide) (by
    intro op hop
    simp only [hostOps1, List.mem_cons, List.mem_nil_iff, or_false] at hop
    rcases hop with rfl | rfl | rfl <;> simp only [StableHlo.nullary_writes, StableHlo.unary_writes, StableHlo.binary_writes, Finset.mem_singleton] <;> exact StableHlo.devRef_ne_of_ne (by decide))
theorem tail_arg1 {U' : Type} [URA U'] (dats : (p : Fin 1) → (c : Dev nD) → Dat τ (Elt F) Unit ℕ U' ℕ (cfgs p) c) (c : Dev nD) :
    Pipeline.afterTail₀ cfgs dats 0 (V0 m) [hostOps1] c main_arg1 = V m c main_arg1 :=
  tail_keeps m dats c main_arg1 (by decide) (by
    intro op hop
    simp only [hostOps1, List.mem_cons, List.mem_nil_iff, or_false] at hop
    rcases hop with rfl | rfl | rfl <;> simp only [StableHlo.nullary_writes, StableHlo.unary_writes, StableHlo.binary_writes, Finset.mem_singleton] <;> exact StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first operand's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second operand's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The two arguments are no array of the region and no later line writes them: the run's post gives the frame. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans ((tail_arg0 m dats c).trans (V_main_arg0 m c)),
     ((h c).2 main_arg1 (Pipeline.mem_restRefs_of main_arg1 (by decide) (by decide))).trans ((tail_arg1 m dats c).trans (V_main_arg1 m c))⟩) h

/-! ## The body's two conditions over the grid -/

/-- "The reduction coordinate is 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "The reduction coordinate is 3": the row's result is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the result is not stored the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1x1x128 .f32 := (Memref.whole cc0_stg2_0 : Memref sig .tc .vmem S1x1x128 .f32).view
abbrev ms0_0 (t : Fin cfg0.N) : Memref sig .tc .vmem S2048x66 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x66 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
/-- The running row maxima: a scratch buffer of the kernel's own, carried from point to point. -/
abbrev scM0_0 : Memref sig .tc .vmem S2048x1 .f32 := Memref.whole cc0_scratch0
abbrev VS0_0 : View sig .tc .vmem S2048x1 .f32 := scM0_0.view

/-- What the launch hands the region beside the windows: the scratch buffer at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.RunK.lean ====
/-
  The kernel body run once per control case. The body resets the running row maxima when the reduction coordinate
  is 0, loads the two operand blocks, folds the row maxima of their product into the running maxima, and when the
  reduction coordinate is 3 stores the maximum of the running maxima, splat over the lanes, into the output block.
  Three cases meet the grid: reset and no store (first), neither (middle), store and no reset (last). Each run
  leaves the operand blocks as they were and the buffers it stored into with the stores listed, last first.
-/
import proofs.«156121_j21388937134644_2_alg».proof.Proof.BaseK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- First case: the running maxima are reset and updated; the output block is left as it was. -/
noncomputable def kernelRun0_A (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) :
    Σ' (L2 : List (View.Piece (Elt F) S1x1x128 .f32)), { LS0 : List (View.Piece (Elt F) S2048x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg2 harg2 arg3 harg3 arg4 harg4 arg5 harg5) K } := by
  refine ⟨[], ?_, fun xi2 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Middle case: the running maxima, found at `xs0`, are updated; the output block is left as it was. -/
noncomputable def kernelRun0_B (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) :
    Σ' (L2 : List (View.Piece (Elt F) S1x1x128 .f32)), { LS0 : List (View.Piece (Elt F) S2048x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg2 harg2 arg3 harg3 arg4 harg4 arg5 harg5) K } := by
  refine ⟨[], ?_, fun xi2 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Last case: the running maxima, found at `xs0`, are updated and their maximum is stored into the output block. -/
noncomputable def kernelRun0_C (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) :
    Σ' (L2 : List (View.Piece (Elt F) S1x1x128 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg2 harg2 arg3 harg3 arg4 harg4 arg5 harg5) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrameK.lean ====
/-
  The region's proof data and its run. After each grid point the running row maxima hold what that point's case
  left there, given what the point before left (the first point of each row of the grid resets them); the output
  block's buffer holds the last case's store at the points ≡ 3 mod 4, where it is written back, and is idle
  elsewhere. From these: the body's obligation at every point, the run of @main, and the frame.
-/
import proofs.«156121_j21388937134644_2_alg».proof.Proof.RunK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first case leaves in the running maxima: its stores read back. -/
def sout0_A_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) : Vec F S2048x1 .f32 :=
  VS0_0.read (Elt F) (VS0_0.writes (Elt F) VS0_0.junk (kernelRun0_A c i arg2 harg2 arg3 harg3 arg4 harg4 arg5 harg5 hc0 hc1 x0 x1).2.1)

/-- Those stores cover the buffer. -/
theorem scover0_A_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) (y : S2048x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x1.size (by sl_kernel_rfl) y

/-- What the case leaves in the output block's buffer: its stores read back (none: nothing consults it where the window is idle). -/
def out0_A_2 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) : Vec F S1x1x128 .f32 :=
  VO0_2.read (Elt F) (VO0_2.writes (Elt F) VO0_2.junk (kernelRun0_A c i arg2 harg2 arg3 harg3 arg4 harg4 arg5 harg5 hc0 hc1 x0 x1).1)

/-- What the middle case leaves in the running maxima: its stores read back. -/
def sout0_B_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) : Vec F S2048x1 .f32 :=
  VS0_0.read (Elt F) (VS0_0.writes (Elt F) VS0_0.junk (kernelRun0_B c i arg2 harg2 arg3 harg3 arg4 harg4 arg5 harg5 hc0 hc1 x0 x1 xs0).2.1)

/-- Those stores cover the buffer. -/
theorem scover0_B_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) (y : S2048x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x1.size (by sl_kernel_rfl) y

/-- What the case leaves in the output block's buffer: its stores read back (none: nothing consults it where the window is idle). -/
def out0_B_2 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) : Vec F S1x1x128 .f32 :=
  VO0_2.read (Elt F) (VO0_2.writes (Elt F) VO0_2.junk (kernelRun0_B c i arg2 harg2 arg3 harg3 arg4 harg4 arg5 harg5 hc0 hc1 x0 x1 xs0).1)

/-- What the last case leaves in the running maxima: its stores read back. -/
def sout0_C_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) : Vec F S2048x1 .f32 :=
  VS0_0.read (Elt F) (VS0_0.writes (Elt F) VS0_0.junk (kernelRun0_C c i arg2 harg2 arg3 harg3 arg4 harg4 arg5 harg5 hc0 hc1 x0 x1 xs0).2.1)

/-- Those stores cover the buffer. -/
theorem scover0_C_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) (y : S2048x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x1.size (by sl_kernel_rfl) y

/-- What the case leaves in the output block's buffer: its stores read back. -/
def out0_C_2 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) : Vec F S1x1x128 .f32 :=
  VO0_2.read (Elt F) (VO0_2.writes (Elt F) VO0_2.junk (kernelRun0_C c i arg2 harg2 arg3 harg3 arg4 harg4 arg5 harg5 hc0 hc1 x0 x1 xs0).1)

/-- The last case's store tiles the output block. -/
theorem cover0_C_2 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) (y : S1x1x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1x128.size (by sl_kernel_rfl) y

/-! ## What the buffers hold after each point -/

/-- After position `n`: the output block's buffer and the running maxima, by recursion on the position — the case
    the position's residue mod 4 selects, run on the point's operand blocks and on the maxima the point before left. -/
def outsAt0 (c : Dev nD) : (n : ℕ) → n < cfg0.N → Vec F S1x1x128 .f32 × Vec F S2048x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start what the launch hands over; afterwards the running
    maxima at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point `t` each operand's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks; the position's residue mod 4 says which case
    runs; the invariant hands over the running maxima at what the point before left (at anything at the first
    point) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) scM0_0 (Memref.isWhole_whole _) _ _ (iblk m c 0 t) (iblk m c 1 t))
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) scM0_0 (Memref.isWhole_whole _) _ _ (iblk m c 0 t) (iblk m c 1 t))
          iexact Hg
        isplitl [Ho]; · iexact Ho
        isplitl [H0]; · iexact H0
        isplitl [H1]; · iexact H1
        iexists _; iexact H2
  · by_cases hz : t.val = 0
    · exfalso; omega
    · by_cases h1 : t.val % 4 = 3
      · rw [show (dats m 0 c).leavesExact 2 t = owns (c : Thread nD τ) (ms0_2 t) fullShare ((dats m 0 c).after 2 t) from by
          unfold Dat.leavesExact; rw [liveAt0_2 t ((hcond0_1 t).mpr h1)], after0_2]
        rw [outsAt0_C m c t h0 h1]
        unfold out0_C_2 sout0_C_0; (try dsimp only)
        rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) scM0_0 (Memref.isWhole_whole _) _ _ (iblk m c 0 t) (iblk m c 1 t) _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c (grid0.coords t) (ms0_0 t) (hs0_0 t) (ms0_1 t) (hs0_1 t) (ms0_2 t) (hs0_2 t) scM0_0 (Memref.isWhole_whole _) _ _ (iblk m c 0 t) (iblk m c 1 t) _)
      · rw [Dat.leavesExact_idle (dats m 0 c) 2 t (idleAt0_2 t (fun h => h1 ((hcond0_1 t).mp h))) (noFlush0_2 t (fun h => h1 ((hcond0_1 t).mp h)))]
        rw [outsAt0_B m c t h0 h1]
        unfold sout0_B_0; (try dsimp only)
        rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) scM0_0 (Memref.isWhole_whole _) _ _ (iblk m c 0 t) (iblk m c 1 t) _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and at the end every array of the region holds what the
    library computes from the proof data, every other buffer what the three later lines leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame, at any float instance: the run terminates, nothing faults, both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.BaseI.lean ====
/-
  The launch of the one kernel region around its host lines, and what the kernel's body is stated over.
  @main is seventeen host operations (the two augmented operand arrays are built there), the region on a 4 × 4 grid,
  and three host operations after it. Here: the arrays as the region finds them, that the lines before the region
  write neither argument, the lines after it write no array of the region, each input window's block at a grid
  point, the two conditions of the body decided over the grid (the reduction coordinate is 0: the points
  ≡ 0 mod 4; it is 3: the points ≡ 3 mod 4), and where the output window is idle.
-/
import proofs.«156121_j21388937134644_2_alg».proof.Proof.Gen.KernelIdeal.Launch
import proofs.«156121_j21388937134644_2_alg».proof.Proof.Gen.KernelIdeal.Skeleton
import proofs.«156121_j21388937134644_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the seventeen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the three later lines, holding the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region: each writes only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, Finset.mem_singleton] <;> exact StableHlo.devRef_ne_of_ne (by decide)

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- A buffer that is no array of the region and that the three later lines do not write ends at its region-entry
    contents. -/
theorem tail_keeps {U' : Type} [URA U'] (dats : (p : Fin 1) → (c : Dev nD) → Dat τ (Elt F) Unit ℕ U' ℕ (cfgs p) c) (c : Dev nD) (b : Ref sig .tc)
    (harr : ∀ w, Pipeline.arrRef spec0 w ≠ b)
    (hw : ∀ op ∈ (hostOps1 : List (HloOp τ sig (Elt F))), Proc.devRef .tc b ∉ op.writes) :
    Pipeline.afterTail₀ cfgs dats 0 (V0 m) [hostOps1] c b = V m c b := by
  unfold Pipeline.afterTail₀
  rw [StableHlo.after_of_forall_not_mem _ _ (by
    intro op hop; rw [List.flatten_cons, List.flatten_nil, List.append_nil] at hop; exact hw op hop)]
  exact Pipeline.withArrays_of_ne _ c (V0 m c) _ b harr

theorem tail_arg0 {U' : Type} [URA U'] (dats : (p : Fin 1) → (c : Dev nD) → Dat τ (Elt F) Unit ℕ U' ℕ (cfgs p) c) (c : Dev nD) :
    Pipeline.afterTail₀ cfgs dats 0 (V0 m) [hostOps1] c main_arg0 = V m c main_arg0 :=
  tail_keeps m dats c main_arg0 (by decide) (by
    intro op hop
    simp only [hostOps1, List.mem_cons, List.mem_nil_iff, or_false] at hop
    rcases hop with rfl | rfl | rfl <;> simp only [StableHlo.nullary_writes, StableHlo.unary_writes, StableHlo.binary_writes, Finset.mem_singleton] <;> exact StableHlo.devRef_ne_of_ne (by decide))
theorem tail_arg1 {U' : Type} [URA U'] (dats : (p : Fin 1) → (c : Dev nD) → Dat τ (Elt F) Unit ℕ U' ℕ (cfgs p) c) (c : Dev nD) :
    Pipeline.afterTail₀ cfgs dats 0 (V0 m) [hostOps1] c main_arg1 = V m c main_arg1 :=
  tail_keeps m dats c main_arg1 (by decide) (by
    intro op hop
    simp only [hostOps1, List.mem_cons, List.mem_nil_iff, or_false] at hop
    rcases hop with rfl | rfl | rfl <;> simp only [StableHlo.nullary_writes, StableHlo.unary_writes, StableHlo.binary_writes, Finset.mem_singleton] <;> exact StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first operand's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second operand's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The two arguments are no array of the region and no later line writes them: the run's post gives the frame. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans ((tail_arg0 m dats c).trans (V_main_arg0 m c)),
     ((h c).2 main_arg1 (Pipeline.mem_restRefs_of main_arg1 (by decide) (by decide))).trans ((tail_arg1 m dats c).trans (V_main_arg1 m c))⟩) h

/-! ## The body's two conditions over the grid -/

/-- "The reduction coordinate is 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "The reduction coordinate is 3": the row's result is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the result is not stored the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1x1x128 .f32 := (Memref.whole cc0_stg2_0 : Memref sig .tc .vmem S1x1x128 .f32).view
abbrev ms0_0 (t : Fin cfg0.N) : Memref sig .tc .vmem S2048x66 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x66 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
/-- The running row maxima: a scratch buffer of the kernel's own, carried from point to point. -/
abbrev scM0_0 : Memref sig .tc .vmem S2048x1 .f32 := Memref.whole cc0_scratch0
abbrev VS0_0 : View sig .tc .vmem S2048x1 .f32 := scM0_0.view

/-- What the launch hands the region beside the windows: the scratch buffer at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.RunI.lean ====
/-
  The kernel body run once per control case. The body resets the running row maxima when the reduction coordinate
  is 0, loads the two operand blocks, folds the row maxima of their product into the running maxima, and when the
  reduction coordinate is 3 stores the maximum of the running maxima, splat over the lanes, into the output block.
  Three cases meet the grid: reset and no store (first), neither (middle), store and no reset (last). Each run
  leaves the operand blocks as they were and the buffers it stored into with the stores listed, last first.
-/
import proofs.«156121_j21388937134644_2_alg».proof.Proof.BaseI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- First case: the running maxima are reset and updated; the output block is left as it was. -/
noncomputable def kernelRun0_A (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) :
    Σ' (L2 : List (View.Piece (Elt F) S1x1x128 .f32)), { LS0 : List (View.Piece (Elt F) S2048x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg2 harg2 arg3 harg3 arg4 harg4 arg5 harg5) K } := by
  refine ⟨[], ?_, fun xi2 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Middle case: the running maxima, found at `xs0`, are updated; the output block is left as it was. -/
noncomputable def kernelRun0_B (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) :
    Σ' (L2 : List (View.Piece (Elt F) S1x1x128 .f32)), { LS0 : List (View.Piece (Elt F) S2048x1 .f32) //
      ∀ (xi2 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg2 harg2 arg3 harg3 arg4 harg4 arg5 harg5) K } := by
  refine ⟨[], ?_, fun xi2 E K => ?run⟩
  case run =>
    simp only [cc0__contrastive_kernel_eq_skeleton]; unfold cc0__contrastive_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Last case: the running maxima, found at `xs0`, are updated and their maximum is stored into the output block. -/
noncomputable def kernelRun0_C (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) :
    Σ' (L2 : List (View.Piece (Elt F) S1x1x128 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg2 harg2 arg3 harg3 arg4 harg4 arg5 harg5) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrameI.lean ====
/-
  The region's proof data and its run. After each grid point the running row maxima hold what that point's case
  left there, given what the point before left (the first point of each row of the grid resets them); the output
  block's buffer holds the last case's store at the points ≡ 3 mod 4, where it is written back, and is idle
  elsewhere. From these: the body's obligation at every point, the run of @main, and the frame.
-/
import proofs.«156121_j21388937134644_2_alg».proof.Proof.RunI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first case leaves in the running maxima: its stores read back. -/
def sout0_A_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) : Vec F S2048x1 .f32 :=
  VS0_0.read (Elt F) (VS0_0.writes (Elt F) VS0_0.junk (kernelRun0_A c i arg2 harg2 arg3 harg3 arg4 harg4 arg5 harg5 hc0 hc1 x0 x1).2.1)

/-- Those stores cover the buffer. -/
theorem scover0_A_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) (y : S2048x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x1.size (by sl_kernel_rfl) y

/-- What the case leaves in the output block's buffer: its stores read back (none: nothing consults it where the window is idle). -/
def out0_A_2 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) : Vec F S1x1x128 .f32 :=
  VO0_2.read (Elt F) (VO0_2.writes (Elt F) VO0_2.junk (kernelRun0_A c i arg2 harg2 arg3 harg3 arg4 harg4 arg5 harg5 hc0 hc1 x0 x1).1)

/-- What the middle case leaves in the running maxima: its stores read back. -/
def sout0_B_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) : Vec F S2048x1 .f32 :=
  VS0_0.read (Elt F) (VS0_0.writes (Elt F) VS0_0.junk (kernelRun0_B c i arg2 harg2 arg3 harg3 arg4 harg4 arg5 harg5 hc0 hc1 x0 x1 xs0).2.1)

/-- Those stores cover the buffer. -/
theorem scover0_B_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) (y : S2048x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x1.size (by sl_kernel_rfl) y

/-- What the case leaves in the output block's buffer: its stores read back (none: nothing consults it where the window is idle). -/
def out0_B_2 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) : Vec F S1x1x128 .f32 :=
  VO0_2.read (Elt F) (VO0_2.writes (Elt F) VO0_2.junk (kernelRun0_B c i arg2 harg2 arg3 harg3 arg4 harg4 arg5 harg5 hc0 hc1 x0 x1 xs0).1)

/-- What the last case leaves in the running maxima: its stores read back. -/
def sout0_C_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) : Vec F S2048x1 .f32 :=
  VS0_0.read (Elt F) (VS0_0.writes (Elt F) VS0_0.junk (kernelRun0_C c i arg2 harg2 arg3 harg3 arg4 harg4 arg5 harg5 hc0 hc1 x0 x1 xs0).2.1)

/-- Those stores cover the buffer. -/
theorem scover0_C_0 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) (y : S2048x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x1.size (by sl_kernel_rfl) y

/-- What the case leaves in the output block's buffer: its stores read back. -/
def out0_C_2 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) : Vec F S1x1x128 .f32 :=
  VO0_2.read (Elt F) (VO0_2.writes (Elt F) VO0_2.junk (kernelRun0_C c i arg2 harg2 arg3 harg3 arg4 harg4 arg5 harg5 hc0 hc1 x0 x1 xs0).1)

/-- The last case's store tiles the output block. -/
theorem cover0_C_2 (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) (y : S1x1x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1x128.size (by sl_kernel_rfl) y

/-! ## What the buffers hold after each point -/

/-- After position `n`: the output block's buffer and the running maxima, by recursion on the position — the case
    the position's residue mod 4 selects, run on the point's operand blocks and on the maxima the point before left. -/
def outsAt0 (c : Dev nD) : (n : ℕ) → n < cfg0.N → Vec F S1x1x128 .f32 × Vec F S2048x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start what the launch hands over; afterwards the running
    maxima at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point `t` each operand's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks; the position's residue mod 4 says which case
    runs; the invariant hands over the running maxima at what the point before left (at anything at the first
    point) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) scM0_0 (Memref.isWhole_whole _) _ _ (iblk m c 0 t) (iblk m c 1 t))
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) scM0_0 (Memref.isWhole_whole _) _ _ (iblk m c 0 t) (iblk m c 1 t))
          iexact Hg
        isplitl [Ho]; · iexact Ho
        isplitl [H0]; · iexact H0
        isplitl [H1]; · iexact H1
        iexists _; iexact H2
  · by_cases hz : t.val = 0
    · exfalso; omega
    · by_cases h1 : t.val % 4 = 3
      · rw [show (dats m 0 c).leavesExact 2 t = owns (c : Thread nD τ) (ms0_2 t) fullShare ((dats m 0 c).after 2 t) from by
          unfold Dat.leavesExact; rw [liveAt0_2 t ((hcond0_1 t).mpr h1)], after0_2]
        rw [outsAt0_C m c t h0 h1]
        unfold out0_C_2 sout0_C_0; (try dsimp only)
        rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) scM0_0 (Memref.isWhole_whole _) _ _ (iblk m c 0 t) (iblk m c 1 t) _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c (grid0.coords t) (ms0_0 t) (hs0_0 t) (ms0_1 t) (hs0_1 t) (ms0_2 t) (hs0_2 t) scM0_0 (Memref.isWhole_whole _) _ _ (iblk m c 0 t) (iblk m c 1 t) _)
      · rw [Dat.leavesExact_idle (dats m 0 c) 2 t (idleAt0_2 t (fun h => h1 ((hcond0_1 t).mp h))) (noFlush0_2 t (fun h => h1 ((hcond0_1 t).mp h)))]
        rw [outsAt0_B m c t h0 h1]
        unfold sout0_B_0; (try dsimp only)
        rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) scM0_0 (Memref.isWhole_whole _) _ _ (iblk m c 0 t) (iblk m c 1 t) _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and at the end every array of the region holds what the
    library computes from the proof data, every other buffer what the three later lines leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame, at any float instance: the run terminates, nothing faults, both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.Spec.lean ====
/-
  The quantity both programs compute, as one function of the two embedding arrays over the extended reals.
  For rows `n` of `l` and `m` of `r` the squared Euclidean distance in its Gram form is
  `‖l n‖² + ‖r m‖² − 2 ⟨l n, r m⟩`; it is clamped below at `0`, the largest clamped value over all
  `8192 × 8192` pairs is taken, and the result is its square root.
-/
import Idealize.ShloMosaic.PureOps.Ideal
import Idealize.ShloMosaic.Lib.ValueIdx

noncomputable section

open scoped BigOperators

namespace Cert.Spec

open Idealize.ShloMosaic Idealize.ShloMosaic.ValueIdx

/-- An `8192 × 64` array of extended reals. -/
abbrev Arr : Type := (⟨2, ![8192, 64]⟩ : Shape).Idx → EReal

/-- The squared norm of row `n`. -/
def sqn (x : Arr) (n : Fin 8192) : EReal := ∑ d : Fin 64, x (ix2 n d) * x (ix2 n d)

/-- The inner product of row `n` of `l` with row `m` of `r`. -/
def dotp (l r : Arr) (n m : Fin 8192) : EReal := ∑ d : Fin 64, l (ix2 n d) * r (ix2 m d)

/-- The squared distance of row `n` of `l` from row `m` of `r`, in Gram form. -/
def gram (l r : Arr) (n m : Fin 8192) : EReal := (sqn l n + sqn r m) - (2 : EReal) * dotp l r n m

/-- The largest clamped squared distance over all pairs of rows. -/
def maxSq (l r : Arr) : EReal := Finset.univ.sup fun p : Fin 8192 × Fin 8192 => max (gram l r p.1 p.2) 0

/-- The largest distance between a row of `l` and a row of `r`. -/
def out (l r : Arr) : EReal := Ideal.sqrt (maxSq l r)

end Cert.Spec

end
-- ==== Proof.RefValue.lean ====
/-
  The reference computes the specification. Its last two operations are a maximum over every pair of rows
  followed by a square root; the maximum of a finite family over the extended reals, started from −∞, is the
  supremum of the family, and re-indexing the family of all 8192 × 8192 result positions by pairs of row numbers
  puts it in the form the specification has. At one pair of rows the reference's value is the clamped Gram form
  of the squared distance: the two broadcast squared norms added, minus twice the contraction of the two rows.
-/
import proofs.«156121_j21388937134644_2_alg».proof.Proof.Gen.ReferenceIdeal.Read
import proofs.«156121_j21388937134644_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The pattern of 2.0 denotes the extended real 2. -/
theorem ofBits_two : Ideal.ofBits .f32 0x40000000#32 = (2 : EReal) := by
  simp [Ideal.ofBits, Ideal.ieee, -EReal.coe_mul]; norm_num; norm_cast

/-- The pattern of −∞ denotes the least extended real. -/
theorem ofBits_neg_inf : Ideal.ofBits .f32 0xFF800000#32 = (⊥ : EReal) := by
  simp [Ideal.ofBits, Ideal.ieee]

/-- The clamped squared distance of row n of l from row m of r, as the reference computes it at position (n, m). -/
theorem clamped_at (l r : Cert.Spec.Arr) (n m : Fin 8192) :
    val_main_v14 (F := Ideal) l r (ix2 n m) = max (Cert.Spec.gram l r n m) 0 := by
  have e1 : ∀ k : Fin 64, idx_main_v1 (idx_main_v5 (idx_main_v7 (ix2 n m))) k = ix2 n k := fun k =>
    funext fun a => Fin.ext (by match a with | ⟨0, _⟩ => rfl | ⟨1, _⟩ => rfl)
  have e3 : ∀ k : Fin 64, idx_main_v3 (idx_main_v6 (idx_main_v8 (ix2 n m))) k = ix2 m k := fun k =>
    funext fun a => Fin.ext (by match a with | ⟨0, _⟩ => rfl | ⟨1, _⟩ => rfl)
  have el : ∀ k : Fin 64, lidx_main_v4 (ix2 n m) k = ix2 n k := fun k =>
    funext fun a => Fin.ext (by match a with | ⟨0, _⟩ => rfl | ⟨1, _⟩ => rfl)
  have er : ∀ k : Fin 64, ridx_main_v4 (ix2 n m) k = ix2 m k := fun k =>
    funext fun a => Fin.ext (by match a with | ⟨0, _⟩ => rfl | ⟨1, _⟩ => rfl)
  rw [val_main_v14_apply, val_main_v12_apply, val_main_v13_apply, val_main_cst_2_apply, val_main_v9_apply,
    val_main_v11_apply, val_main_v10_apply, val_main_cst_1_apply, val_main_v7_apply, val_main_v5_apply,
    val_main_v1_apply, val_main_v8_apply, val_main_v6_apply, val_main_v3_apply, val_main_v4_apply,
    val_main_cst_apply, val_main_cst_0_apply]
  simp only [val_main_v0_apply, val_main_v2_apply, e1, e3, el, er, Ideal.ofBits_def, Ideal.addf_def, Ideal.subf_def,
    Ideal.mulf_def, Ideal.maximumf_def, Ideal.ofBits_zero_f32, ofBits_two, zero_add]
  rfl

/-- Every result position reduces into the one position of a rank-zero result. -/
instance : Subsingleton S_.Idx := ⟨fun a b => funext fun d => d.elim0⟩

/-- The maximum of a family over a finite set, started from −∞, is the family's supremum. -/
theorem fold_max_bot_eq_sup {ι : Type} (s : Finset ι) (f : ι → EReal) :
    s.fold (FloatOps.maximumf (F := Ideal) (φ := .f32)) (⊥ : EReal) f = s.sup f := rfl

/-- A supremum over a finite type does not change when the family is re-indexed along a bijection. -/
theorem sup_reindex {α β : Type} {_ : Fintype α} {_ : Fintype β} (e : α ≃ β) (f : α → EReal) (g : β → EReal)
    (h : ∀ a, f a = g (e a)) : Finset.univ.sup f = Finset.univ.sup g := by
  refine le_antisymm (Finset.sup_le fun a _ => ?_) (Finset.sup_le fun b _ => ?_)
  · rw [h a]; exact Finset.le_sup (Finset.mem_univ _)
  · rw [← e.apply_symm_apply b, ← h]; exact Finset.le_sup (Finset.mem_univ _)

/-- The reference's maximum over all positions is the largest clamped squared distance over all pairs of rows. -/
theorem maxReduce_eq (l r : Cert.Spec.Arr) (i : S_.Idx) :
    val_main_v15 (F := Ideal) l r i = Cert.Spec.maxSq l r := by
  unfold val_main_v15
  rw [Host.reduce_eq_fold, Finset.filter_true_of_mem (fun _ _ => Subsingleton.elim _ _), val_main_cst_3_apply,
    Ideal.ofBits_def, ofBits_neg_inf, fold_max_bot_eq_sup]
  unfold Cert.Spec.maxSq
  refine sup_reindex (idxEquiv2 (n0 := 8192) (n1 := 8192)) _ _ fun j => ?_
  obtain ⟨n, m, rfl⟩ : ∃ (n m : Fin 8192), j = ix2 n m := ⟨j 0, j 1, eq_ix2 j⟩
  exact clamped_at l r n m

/-- The reference's result is the specification: the square root of the largest clamped squared distance. -/
theorem ref_eq_spec (l r : Cert.Spec.Arr) :
    val_main_v16 (F := Ideal) l r = fun _ => Cert.Spec.out l r := by
  funext i
  rw [val_main_v16_apply, Ideal.hostUnary_sqrt_def, maxReduce_eq]
  rfl

end Cert.ReferenceIdeal.RefValue

end
-- ==== Proof.Finite.lean ====
/-
  From the precondition to real entries. The precondition says that the conjunction, over both argument arrays,
  of "every entry's absolute value is below +∞" is true. A conjunction over all entries that is true is true at
  each entry, and an extended real whose absolute value is below +∞ is neither +∞ nor −∞ (the latter's absolute
  value is +∞; so is the junk value's, which is −∞ here), hence a real number.
-/
import proofs.«156121_j21388937134644_2_alg».proof.Defs
import proofs.«156121_j21388937134644_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Cert.Pre_finite_inputs

/-- A rank-zero result has one position. -/
instance : Subsingleton S_.Idx := ⟨fun a b => funext fun d => d.elim0⟩

/-- The pattern of +∞ denotes the greatest extended real. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ y : ℝ, x = (y : EReal) := by
  induction x using EReal.rec with
  | bot => simp at h
  | coe y => exact ⟨y, rfl⟩
  | top => simp at h

/-- One entry of an array passing the comparison "absolute value below +∞" is a real number. -/
theorem entry_real [Facts] (a : FVec Ideal S8192x64 .f32) (i : S8192x64.Idx)
    (h : cmpf .olt (Host.absf a) (broadcastInDim S8192x64 ![] Facts.bcast_S_S8192x64
      (constant (F := Ideal) S_ .f32 0x7F800000#32)) i = 1#1) : ∃ y : ℝ, a i = (y : EReal) := by
  rw [cmpf_apply, broadcastInDim_apply _ Facts.bcast_S_S8192x64 _ i ix0 (fun d => d.elim0), constant_apply,
    ofBits_inf] at h
  refine real_of_abs_lt_top (a i) ?_
  have h' : Ideal.cmp .olt (max (a i) (-(a i))) ⊤ = 1#1 := h
  by_contra hn
  have e0 : Ideal.cmp .olt (max (a i) (-(a i))) ⊤ = 0#1 := by
    show BitVec.ofBool (decide (max (a i) (-(a i)) < ⊤)) = 0#1
    rw [decide_eq_false hn]; rfl
  rw [e0] at h'
  exact absurd h' (by decide)

/-- Arrays of which the printed finiteness predicate is all ones have real entries. -/
theorem finite_of_fn [Facts] (a b : FVec Ideal S8192x64 .f32) (h : fn (F := Ideal) a b = fun _ => 1#1) :
    (∀ i : S8192x64.Idx, ∃ x : ℝ, a i = (x : EReal)) ∧ (∀ i : S8192x64.Idx, ∃ x : ℝ, b i = (x : EReal)) := by
  have h0 := congrFun h ix0
  dsimp only [fn] at h0
  obtain ⟨h1, h2⟩ := IntOp.andi_eq_one.1 h0
  exact ⟨fun i => entry_real a i (Host.reduce_andi_all _ _ _ _ _ h1 i),
    fun i => entry_real b i (Host.reduce_andi_all _ _ _ _ _ h2 i)⟩

/-- Under the kernel's precondition both argument arrays have real entries, on every device. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S8192x64.Idx, ∃ x : ℝ,
      (m ((c.tc : Thread Cert.KernelIdeal.nD Cert.KernelIdeal.τ).loc Cert.KernelIdeal.main_arg0) : FVec Ideal S8192x64 .f32) i
        = (x : EReal))
    ∧ (∀ i : S8192x64.Idx, ∃ x : ℝ,
      (m ((c.tc : Thread Cert.KernelIdeal.nD Cert.KernelIdeal.τ).loc Cert.KernelIdeal.main_arg1) : FVec Ideal S8192x64 .f32) i
        = (x : EReal)) :=
  finite_of_fn _ _ (h c)

end Cert.Finite

end
-- ==== Proof.KSpec.lean ====
/-
  What the kernel computes, as a function of its two augmented operand arrays. Row `n` of the left array is
  `(l n, ‖l n‖², 1)` and row `m` of the right one `(−2 · r m, 1, ‖r m‖²)`, both of length 66, so that their
  inner product is the Gram form of the squared distance. The grid cuts both row ranges into four tiles of 2048 rows;
  for a row of the left array the kernel keeps the running maximum, started at 0, of the row's inner products with the
  rows of the four right tiles in turn, then takes the maximum over the rows of the tile, over the tiles, and the
  square root.
-/
import proofs.«156121_j21388937134644_2_alg».proof.Proof.Spec

noncomputable section

open scoped BigOperators

namespace Cert.KSpec

open Idealize.ShloMosaic Idealize.ShloMosaic.ValueIdx Cert.Spec

/-- An `8192 × 66` array of extended reals. -/
abbrev Aug : Type := (⟨2, ![8192, 66]⟩ : Shape).Idx → EReal

/-- The left operand augmented: a row, its squared norm, one. -/
def augL (l : Arr) : Aug := fun j =>
  if h : (j 1).val < 64 then l (ix2 (j 0) ⟨(j 1).val, h⟩) else if (j 1).val = 64 then sqn l (j 0) else 1

/-- The right operand augmented: minus twice a row, one, its squared norm. -/
def augR (r : Arr) : Aug := fun j =>
  if h : (j 1).val < 64 then (-2 : EReal) * r (ix2 (j 0) ⟨(j 1).val, h⟩) else if (j 1).val = 64 then 1 else sqn r (j 0)

/-- The inner product of row `n` of the left array with row `m` of the right one. -/
def kdot (LA RA : Aug) (n m : Fin 8192) : EReal := ∑ k : Fin 66, LA (ix2 n k) * RA (ix2 m k)

/-- Row `r` of tile `i`. -/
def row (i : Fin 4) (r : Fin 2048) : Fin 8192 := ⟨2048 * i.val + r.val, by omega⟩

/-- The largest inner product of row `r` of left tile `i` with a row of right tile `j`. -/
def tile (LA RA : Aug) (i j : Fin 4) (r : Fin 2048) : EReal :=
  Finset.univ.sup fun col : Fin 2048 => kdot LA RA (row i r) (row j col)

/-- The running maximum of a row after the four right tiles, started at zero. -/
def rowacc (LA RA : Aug) (i : Fin 4) (r : Fin 2048) : EReal :=
  max (max (max (max 0 (tile LA RA i 0 r)) (tile LA RA i 1 r)) (tile LA RA i 2 r)) (tile LA RA i 3 r)

/-- The largest running maximum over the rows of a tile. -/
def tilemax (LA RA : Aug) (i : Fin 4) : EReal := Finset.univ.sup fun r : Fin 2048 => rowacc LA RA i r

/-- The largest over the tiles. -/
def kmax (LA RA : Aug) : EReal := Finset.univ.sup fun i : Fin 4 => tilemax LA RA i

/-- The kernel's result. -/
def kout (LA RA : Aug) : EReal := Ideal.sqrt (kmax LA RA)

end Cert.KSpec

end
-- ==== Proof.KMax.lean ====
/-
  The kernel's tiled running maximum is the largest clamped inner product over all pairs of rows. The maximum of a
  finite family of extended reals is its least upper bound, so both directions are comparisons of bounds: every
  term the kernel folds in — the starting zero and each tile's inner products — is one of the clamped values or
  below one, and conversely every pair of rows (n, m) sits in exactly one pair of tiles, n = 2048 i + r and
  m = 2048 j + c, whose tile maximum the running maximum of row r of tile i has absorbed.
-/
import proofs.«156121_j21388937134644_2_alg».proof.Proof.KSpec

noncomputable section

open scoped BigOperators

namespace Cert.KSpec

open Idealize.ShloMosaic Idealize.ShloMosaic.ValueIdx Cert.Spec

/-- A member of a finite family is below the family's supremum. -/
theorem le_sup_univ {α : Type} {_ : Fintype α} (f : α → EReal) (a : α) : f a ≤ Finset.univ.sup f :=
  Finset.le_sup (Finset.mem_univ a)

/-- Every row number is a row of a tile: the quotient and the remainder by the tile height. -/
theorem row_div_mod (n : Fin 8192) :
    row ⟨n.val / 2048, by have := n.isLt; omega⟩ ⟨n.val % 2048, Nat.mod_lt _ (by decide)⟩ = n :=
  Fin.ext (Nat.div_add_mod n.val 2048)

/-- The running maximum of a row has absorbed each of the four tile maxima. -/
theorem tile_le_rowacc (LA RA : Aug) (i j : Fin 4) (r : Fin 2048) : tile LA RA i j r ≤ rowacc LA RA i r := by
  unfold rowacc
  match j with
  | ⟨0, _⟩ => exact le_trans (le_max_right _ _) (le_trans (le_max_left _ _) (le_trans (le_max_left _ _) (le_max_left _ _)))
  | ⟨1, _⟩ => exact le_trans (le_max_right _ _) (le_trans (le_max_left _ _) (le_max_left _ _))
  | ⟨2, _⟩ => exact le_trans (le_max_right _ _) (le_max_left _ _)
  | ⟨3, _⟩ => exact le_max_right _ _

/-- The running maximum starts at zero, so it is never negative. -/
theorem zero_le_rowacc (LA RA : Aug) (i : Fin 4) (r : Fin 2048) : 0 ≤ rowacc LA RA i r := by
  unfold rowacc
  exact le_trans (le_max_left _ _) (le_trans (le_max_left _ _) (le_trans (le_max_left _ _) (le_max_left _ _)))

/-- A row's running maximum is below the kernel's overall maximum. -/
theorem rowacc_le_kmax (LA RA : Aug) (i : Fin 4) (r : Fin 2048) : rowacc LA RA i r ≤ kmax LA RA :=
  le_trans (le_sup_univ (fun r : Fin 2048 => rowacc LA RA i r) r) (le_sup_univ (fun i : Fin 4 => tilemax LA RA i) i)

/-- The kernel's tiled maximum is the largest clamped inner product over all pairs of rows. -/
theorem kmax_eq (LA RA : Aug) :
    kmax LA RA = Finset.univ.sup fun p : Fin 8192 × Fin 8192 => max (kdot LA RA p.1 p.2) 0 := by
  refine le_antisymm (Finset.sup_le fun i _ => Finset.sup_le fun r _ => ?_) (Finset.sup_le fun p _ => max_le ?_ ?_)
  · have ht : ∀ j : Fin 4, tile LA RA i j r
        ≤ Finset.univ.sup fun p : Fin 8192 × Fin 8192 => max (kdot LA RA p.1 p.2) 0 := fun j =>
      Finset.sup_le fun col _ => le_trans (le_max_left _ (0 : EReal))
        (le_sup_univ (fun p : Fin 8192 × Fin 8192 => max (kdot LA RA p.1 p.2) 0) (row i r, row j col))
    have h0 : (0 : EReal) ≤ Finset.univ.sup fun p : Fin 8192 × Fin 8192 => max (kdot LA RA p.1 p.2) 0 :=
      le_trans (le_max_right (kdot LA RA (row 0 0) (row 0 0)) (0 : EReal))
        (le_sup_univ (fun p : Fin 8192 × Fin 8192 => max (kdot LA RA p.1 p.2) 0) (row 0 0, row 0 0))
    unfold rowacc
    exact max_le (max_le (max_le (max_le h0 (ht 0)) (ht 1)) (ht 2)) (ht 3)
  · obtain ⟨n, m⟩ := p
    show kdot LA RA n m ≤ kmax LA RA
    rw [← row_div_mod n, ← row_div_mod m]
    exact le_trans (le_sup_univ (fun col : Fin 2048 => kdot LA RA (row _ _) (row _ col)) _)
      (le_trans (tile_le_rowacc LA RA _ _ _) (rowacc_le_kmax LA RA _ _))
  · exact le_trans (zero_le_rowacc LA RA 0 0) (rowacc_le_kmax LA RA 0 0)

end Cert.KSpec

end
-- ==== Proof.Algebra.lean ====
/-
  The augmented inner product is the Gram form. Row n of the augmented left array is (l n, ‖l n‖², 1) and row m of
  the augmented right array is (−2 · r m, 1, ‖r m‖²); their inner product over the 66 coordinates is
  Σ_d l n d · (−2 · r m d) + ‖l n‖² · 1 + 1 · ‖r m‖², which for real entries equals ‖l n‖² + ‖r m‖² − 2 ⟨l n, r m⟩.
  Pulling the factor −2 out of the sum is distributivity, which holds for real numbers and not at the infinities,
  so the entries are taken real: the identity is proved in ℝ and carried to the extended reals by the inclusion,
  which commutes with finite sums, products and differences.
-/
import proofs.«156121_j21388937134644_2_alg».proof.Proof.KSpec
import proofs.«156121_j21388937134644_2_alg».proof.Proof.KMax

noncomputable section

open scoped BigOperators

namespace Cert.KSpec

open Idealize.ShloMosaic Idealize.ShloMosaic.ValueIdx Cert.Spec

/-- The inclusion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real number 2 is the extended real 2. -/
theorem two_coe : ((2 : ℝ) : EReal) = 2 := by norm_cast

/-- For real rows, the contraction against the row scaled by −2, plus the two squared norms against the ones,
    is the sum of the squared norms minus twice the inner product. -/
theorem gram_of_contraction (L R : Fin 64 → ℝ) (sl sr : ℝ) :
    (∑ d : Fin 64, (L d : EReal) * ((-2 : EReal) * (R d : EReal))) + ((sl : EReal) * 1 + 1 * (sr : EReal))
      = ((sl : EReal) + (sr : EReal)) - 2 * ∑ d : Fin 64, (L d : EReal) * (R d : EReal) := by
  have e1 : (∑ d : Fin 64, (L d : EReal) * ((-2 : EReal) * (R d : EReal)))
      = ((∑ d : Fin 64, L d * (-2 * R d) : ℝ) : EReal) := by
    rw [coe_sum]
    refine Finset.sum_congr rfl fun d _ => ?_
    rw [EReal.coe_mul, EReal.coe_mul, EReal.coe_neg, two_coe]
  have e2 : (∑ d : Fin 64, (L d : EReal) * (R d : EReal)) = ((∑ d : Fin 64, L d * R d : ℝ) : EReal) := by
    rw [coe_sum]
    exact Finset.sum_congr rfl fun d _ => (EReal.coe_mul _ _).symm
  rw [e1, e2, mul_one, one_mul, ← two_coe, ← EReal.coe_add, ← EReal.coe_add, ← EReal.coe_mul, ← EReal.coe_sub]
  congr 1
  simp only [Finset.mul_sum, ← Finset.sum_neg_distrib]
  rw [add_comm, sub_eq_add_neg]
  congr 1
  rw [← Finset.sum_neg_distrib]
  exact Finset.sum_congr rfl fun d _ => by ring

/-- The augmented left row at one of its first 64 coordinates is the row's entry. -/
theorem augL_lt (l : Arr) (n : Fin 8192) (k : Fin 66) (h : k.val < 64) :
    augL l (ix2 n k) = l (ix2 n ⟨k.val, h⟩) := dif_pos h
/-- At coordinate 64 it is the row's squared norm. -/
theorem augL_64 (l : Arr) (n : Fin 8192) (k : Fin 66) (h : k.val = 64) : augL l (ix2 n k) = sqn l n := by
  have h1 : ¬ ((ix2 n k) 1).val < 64 := by show ¬ k.val < 64; omega
  have h2 : ((ix2 n k) 1).val = 64 := h
  unfold augL; rw [dif_neg h1, if_pos h2]
/-- At coordinate 65 it is one. -/
theorem augL_65 (l : Arr) (n : Fin 8192) (k : Fin 66) (h : k.val = 65) : augL l (ix2 n k) = 1 := by
  have h1 : ¬ ((ix2 n k) 1).val < 64 := by show ¬ k.val < 64; omega
  have h2 : ¬ ((ix2 n k) 1).val = 64 := by show ¬ k.val = 64; omega
  unfold augL; rw [dif_neg h1, if_neg h2]
/-- The augmented right row at one of its first 64 coordinates is minus twice the row's entry. -/
theorem augR_lt (r : Arr) (m : Fin 8192) (k : Fin 66) (h : k.val < 64) :
    augR r (ix2 m k) = (-2 : EReal) * r (ix2 m ⟨k.val, h⟩) := dif_pos h
/-- At coordinate 64 it is one. -/
theorem augR_64 (r : Arr) (m : Fin 8192) (k : Fin 66) (h : k.val = 64) : augR r (ix2 m k) = 1 := by
  have h1 : ¬ ((ix2 m k) 1).val < 64 := by show ¬ k.val < 64; omega
  have h2 : ((ix2 m k) 1).val = 64 := h
  unfold augR; rw [dif_neg h1, if_pos h2]
/-- At coordinate 65 it is the row's squared norm. -/
theorem augR_65 (r : Arr) (m : Fin 8192) (k : Fin 66) (h : k.val = 65) : augR r (ix2 m k) = sqn r m := by
  have h1 : ¬ ((ix2 m k) 1).val < 64 := by show ¬ k.val < 64; omega
  have h2 : ¬ ((ix2 m k) 1).val = 64 := by show ¬ k.val = 64; omega
  unfold augR; rw [dif_neg h1, if_neg h2]

/-- For arrays with real entries the inner product of augmented rows is the Gram form of the squared distance. -/
theorem kdot_aug (l r : Arr) (hl : ∀ i, ∃ x : ℝ, l i = (x : EReal)) (hr : ∀ i, ∃ x : ℝ, r i = (x : EReal))
    (n m : Fin 8192) : kdot (augL l) (augR r) n m = gram l r n m := by
  choose L hL using hl
  choose R hR using hr
  have esl : sqn l n = ((∑ d : Fin 64, L (ix2 n d) * L (ix2 n d) : ℝ) : EReal) := by
    unfold sqn; rw [coe_sum]; exact Finset.sum_congr rfl fun d _ => by rw [hL, EReal.coe_mul]
  have esr : sqn r m = ((∑ d : Fin 64, R (ix2 m d) * R (ix2 m d) : ℝ) : EReal) := by
    unfold sqn; rw [coe_sum]; exact Finset.sum_congr rfl fun d _ => by rw [hR, EReal.coe_mul]
  have ed : dotp l r n m = ∑ d : Fin 64, ((L (ix2 n d) : ℝ) : EReal) * ((R (ix2 m d) : ℝ) : EReal) := by
    unfold dotp; exact Finset.sum_congr rfl fun d _ => by rw [hL, hR]
  have e64 : ∑ i : Fin 64, augL l (ix2 n (Fin.castSucc (Fin.castSucc i))) * augR r (ix2 m (Fin.castSucc (Fin.castSucc i)))
      = ∑ d : Fin 64, ((L (ix2 n d) : ℝ) : EReal) * ((-2 : EReal) * ((R (ix2 m d) : ℝ) : EReal)) :=
    Finset.sum_congr rfl fun i _ => by
      rw [augL_lt l n _ i.isLt, augR_lt r m _ i.isLt, hL, hR]
      rfl
  unfold kdot gram
  rw [Fin.sum_univ_castSucc, Fin.sum_univ_castSucc, augL_64 l n (Fin.castSucc (Fin.last 64)) rfl,
    augR_64 r m (Fin.castSucc (Fin.last 64)) rfl, augL_65 l n (Fin.last 65) rfl, augR_65 r m (Fin.last 65) rfl,
    e64, esl, esr, ed, add_assoc]
  exact gram_of_contraction _ _ _ _

/-- For arrays with real entries the kernel's tiled maximum is the largest clamped squared distance. -/
theorem kmax_aug (l r : Arr) (hl : ∀ i, ∃ x : ℝ, l i = (x : EReal)) (hr : ∀ i, ∃ x : ℝ, r i = (x : EReal)) :
    kmax (augL l) (augR r) = maxSq l r := by
  rw [kmax_eq]
  unfold maxSq
  simp only [kdot_aug l r hl hr]

/-- For arrays with real entries the kernel's result is the specification. -/
theorem kout_aug (l r : Arr) (hl : ∀ i, ∃ x : ℝ, l i = (x : EReal)) (hr : ∀ i, ∃ x : ℝ, r i = (x : EReal)) :
    kout (augL l) (augR r) = out l r := by
  unfold kout out
  rw [kmax_aug l r hl hr]

end Cert.KSpec

end
-- ==== Proof.PiecesI.lean ====
/-
  What each case of the body leaves, as the body's arithmetic applied to what it loaded: the running maxima after
  a point are the update of the maxima it found (of the reset value, zero, at a first point) by the row maxima of the
  point's product; the output block stored at a last point is the lane splat of the largest updated maximum.
-/
import proofs.«156121_j21388937134644_2_alg».proof.Proof.FrameI
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off2_zero : (![0, 0] : Fin 2 → Nat) = fun _ => 0 := by funext a; fin_cases a <;> rfl
theorem off3_zero : (![0, 0, 0] : Fin 3 → Nat) = fun _ => 0 := by funext a; fin_cases a <;> rfl

/-- Middle case: the maxima found, updated. -/
theorem sout0_B_0_eq (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : ¬cond0_1 i)
    (x0 : Vec F S2048x66 .f32) (x1 : Vec F S2048x66 .f32) (xs0 : Vec F S2048x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero off2_zero]
  simp only [View.readAt_eq_ld, harg2.read_unread, harg3.read_unread, harg5.read_unread, View.ld_unit_zero (S := S2048x66) off2_zero, View.ld_unit_zero (S := S2048x1) off2_zero]

/-- First case: the reset value, updated. -/
theorem sout0_A_0_eq (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : cond0_0 i) (hc1 : ¬cond0_1 i)
    (x0 : Vec F S2048x66 .f32) (x1 : Vec F S2048x66 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_run_names
  rw [View.canon_cons_unit_zero off2_zero, View.readCov_unit_zero _ off2_zero]
  simp only [View.readAt_eq_ld, harg2.read_unread, harg3.read_unread, View.ld_unit_zero (S := S2048x66) off2_zero]

/-- Last case: the maxima found, updated, -/
theorem sout0_C_0_eq (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_run_names
  rw [View.canon_unit_zero off2_zero]
  simp only [View.readAt_eq_ld, harg2.read_unread, harg3.read_unread, harg5.read_unread, View.ld_unit_zero (S := S2048x66) off2_zero, View.ld_unit_zero (S := S2048x1) off2_zero]

/-- and the output block: the lane splat of the largest updated maximum. -/
theorem out0_C_2_eq (c : Dev nD) (i : grid0.Coords) (arg2 : Memref sig .tc .vmem S2048x66 .f32) (harg2 : arg2.IsWhole) (arg3 : Memref sig .tc .vmem S2048x66 .f32) (harg3 : arg3.IsWhole) (arg4 : Memref sig .tc .vmem S1x1x128 .f32) (harg4 : arg4.IsWhole) (arg5 : Memref sig .tc .vmem S2048x1 .f32) (harg5 : arg5.IsWhole) (hc0 : ¬cond0_0 i) (hc1 : cond0_1 i)
    (x0 : Vec F S2048x66 .f32) (x1 : Vec F S2048x66 .f32) (xs0 : Vec F S2048x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_run_names
  rw [View.canon_unit_zero off3_zero, View.readCov_unit_zero _ off2_zero]
  simp only [View.readAt_eq_ld, harg2.read_unread, harg3.read_unread, harg5.read_unread, View.ld_unit_zero (S := S2048x66) off2_zero, View.ld_unit_zero (S := S2048x1) off2_zero]

end Cert.KernelIdeal.Fr

end
-- ==== Proof.PayI.lean ====
/-
  The body's arithmetic read at one element, over the extended reals. The update of the running maxima at row `r`
  is the larger of the old maximum and the largest, over the 2048 rows of the right block, of the inner product of
  row `r` of the left block with that row (the reduction starts from −∞, the bottom element, so it is a supremum);
  the stored output block holds, in every lane, the largest running maximum of the tile.
-/
import proofs.«156121_j21388937134644_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Cert.KernelIdeal Cert.KernelIdeal.Gen
open Idealize.ShloMosaic Idealize.ShloMosaic.ValueIdx

/-- The pattern of −∞ is the bottom element. -/
theorem ofBits_neg_inf : Ideal.ofBits .f32 0xFF800000#32 = (⊥ : EReal) := by simp [Ideal.ofBits, Ideal.ieee]

/-- A fold of `max` from the bottom element is the supremum. -/
theorem fold_max_bot {ι : Type} (s : Finset ι) (f : ι → EReal) : s.fold max (⊥ : EReal) f = s.sup f := rfl

/-- The reset value of the running maxima is zero. -/
theorem pay1_apply (y : S2048x1.Idx) : k0_pay1 (F := Ideal) y = 0 := by
  unfold k0_pay1
  simp only [shapeCast_self]
  exact Ideal.ofBits_zero_f32

theorem lhs_row (j : S2048x2048.Idx) (q : dot_S2048x66_S66x2048_S2048x2048_1_0_0_1_n_n.contr.Idx) : (dot_S2048x66_S66x2048_S2048x2048_1_0_0_1_n_n.lhsIdx j q 0).val = (j 0).val := by
  unfold DotDims.lhsIdx
  rw [dif_neg (show ¬(0 : Fin S2048x66.rank) ∈ dot_S2048x66_S66x2048_S2048x2048_1_0_0_1_n_n.lhsBatch by decide), dif_pos (show (0 : Fin S2048x66.rank) ∈ dot_S2048x66_S66x2048_S2048x2048_1_0_0_1_n_n.lhsNonContracting by decide)]
  rfl
theorem rhs_col (j : S2048x2048.Idx) (q : dot_S2048x66_S66x2048_S2048x2048_1_0_0_1_n_n.contr.Idx) : (dot_S2048x66_S66x2048_S2048x2048_1_0_0_1_n_n.rhsIdx j q 1).val = (j 1).val := by
  unfold DotDims.rhsIdx
  rw [dif_neg (show ¬(1 : Fin S66x2048.rank) ∈ dot_S2048x66_S66x2048_S2048x2048_1_0_0_1_n_n.rhsBatch by decide), dif_pos (show (1 : Fin S66x2048.rank) ∈ dot_S2048x66_S66x2048_S2048x2048_1_0_0_1_n_n.rhsNonContracting by decide)]
  rfl

/-- The product of the left block with the transposed right block, at (row, column): the inner product of the
    left block's row with the right block's row of that column's number. -/
theorem mm_apply (x0 x1 : FVec Ideal S2048x66 .f32) (j : S2048x2048.Idx) :
    matmul dot_S2048x66_S66x2048_S2048x2048_1_0_0_1_n_n (some .fp32) x0 (transpose S66x2048 [1, 0] x1 transposes_S2048x66_p1_0_S66x2048)
        (constant (F := Ideal) S2048x2048 .f32 0x00000000#32) j
      = ∑ k : Fin 66, x0 (ix2 (j 0) k) * x1 (ix2 (j 1) k) := by
  refine (Ideal.matmul_constant_zero_apply dot_S2048x66_S66x2048_S2048x2048_1_0_0_1_n_n _ _ _ j).trans ?_
  rw [← Equiv.sum_comp (ValueIdx.contrEquiv1 dot_S2048x66_S66x2048_S2048x2048_1_0_0_1_n_n 66 rfl rfl).symm]
  refine Finset.sum_congr rfl fun k _ => ?_
  have hk := ValueIdx.contrEquiv1_symm_val dot_S2048x66_S66x2048_S2048x2048_1_0_0_1_n_n 66 rfl rfl k
  congr 1
  · refine congrArg x0 (funext fun a => Fin.ext ?_)
    match a with
    | ⟨0, _⟩ => exact lhs_row j _
    | ⟨1, _⟩ => exact (dot_S2048x66_S66x2048_S2048x2048_1_0_0_1_n_n.lhsIdx_val_of_single rfl j _).trans hk
  · refine transpose_apply _ _ _ _ (ix2 (j 1) k) fun b => ?_
    match b with
    | ⟨0, _⟩ => exact ((dot_S2048x66_S66x2048_S2048x2048_1_0_0_1_n_n.rhsIdx_val_of_single rfl j _).trans hk).symm
    | ⟨1, _⟩ => exact (rhs_col j _).symm

/-- The updated running maximum of row `r`. -/
theorem pay2_apply (x0 x1 : FVec Ideal S2048x66 .f32) (a : FVec Ideal S2048x1 .f32) (r : Fin 2048) :
    k0_pay2 (F := Ideal) x0 x1 a (ix2 r (0 : Fin 1))
      = max (a (ix2 r 0)) (Finset.univ.sup fun col : Fin 2048 => ∑ k : Fin 66, x0 (ix2 r k) * x1 (ix2 col k)) := by
  unfold k0_pay2
  refine (congrFun (shapeCast_self _ _) _).trans ?_
  refine (maximumf_apply _ _ _).trans ?_
  refine congrArg (max (a (ix2 r 0))) ?_
  refine (shapeCast_apply _ _ (ix2 r (0 : Fin 1)) (ix1 r) (by
    rw [Shape.rowMajor_val_one, Shape.rowMajor_val_two]; show r.val = r.val * 1 + 0; omega)).trans ?_
  refine (Ideal.multiReduction_maximumf_single _ _ _ _ _ _).trans ?_
  have hbot : (FloatOps.ofBits (F := Ideal) FTy.f32 0xFF800000#32 : EReal) = ⊥ := ofBits_neg_inf
  refine (congrArg (fun b => Finset.fold max b _ Finset.univ) hbot).trans ?_
  refine (fold_max_bot _ _).trans ?_
  refine Finset.sup_congr rfl fun col _ => ?_
  refine (congrArg (fun v => matmul dot_S2048x66_S66x2048_S2048x2048_1_0_0_1_n_n (some .fp32) v _ _ _) (shapeCast_self x0 _)).trans ?_
  refine (congrArg (fun v => matmul dot_S2048x66_S66x2048_S2048x2048_1_0_0_1_n_n (some .fp32) x0 (transpose S66x2048 [1, 0] v transposes_S2048x66_p1_0_S66x2048) _ _) (shapeCast_self x1 _)).trans ?_
  exact mm_apply x0 x1 _

instance : Subsingleton S1.Idx := ⟨fun a b => funext fun d => by
  match d with
  | ⟨0, _⟩ => exact Subsingleton.elim (α := Fin 1) _ _⟩

/-- The largest entry of a 2048 × 1 column, taken as a reduction over a 1 × 2048 × 1 array from −∞. -/
theorem colmax_apply (v : FVec Ideal S2048x1 .f32) (j : S1.Idx) :
    multiReduction (F := Ideal) .maximumf [1, 2] S1 (shapeCast S1x2048x1 v shapeCasts_S2048x1_S1x2048x1) 0xFF800000#32 reduces_S1x2048x1_S1 (.inl rfl) rfl j
      = Finset.univ.sup fun r : Fin 2048 => v (ix2 r (0 : Fin 1)) := by
  refine (multiReduction_maximumf_eq_fold _ _ _ _ _ j).trans ?_
  rw [Finset.filter_true_of_mem fun i _ => Subsingleton.elim _ _]
  have hbot : (FloatOps.ofBits (F := Ideal) FTy.f32 0xFF800000#32 : EReal) = ⊥ := ofBits_neg_inf
  refine (congrArg (fun b => Finset.fold FloatOps.maximumf b _ Finset.univ) hbot).trans ?_
  refine (fold_max_bot _ _).trans ?_
  refine le_antisymm (Finset.sup_le fun i _ => ?_) (Finset.sup_le fun r _ => ?_)
  · obtain ⟨u, r, q, rfl⟩ : ∃ (u : Fin 1) (r : Fin 2048) (q : Fin 1), i = ix3 u r q := ⟨i 0, i 1, i 2, eq_ix3 i⟩
    rw [shapeCast_ab_1ab_apply, show q = 0 from Subsingleton.elim _ _]
    exact Finset.le_sup (f := fun r : Fin 2048 => v (ix2 r (0 : Fin 1))) (Finset.mem_univ r)
  · rw [← shapeCast_ab_1ab_apply v shapeCasts_S2048x1_S1x2048x1 (0 : Fin 1) r (0 : Fin 1)]
    exact Finset.le_sup (f := fun i : S1x2048x1.Idx => shapeCast S1x2048x1 v shapeCasts_S2048x1_S1x2048x1 i) (Finset.mem_univ _)

/-- The stored output block: every lane holds the largest running maximum. -/
theorem pay3_apply (v : FVec Ideal S2048x1 .f32) (y : S1x1x128.Idx) :
    k0_pay3 (F := Ideal) v y = Finset.univ.sup fun r : Fin 2048 => v (ix2 r (0 : Fin 1)) := by
  unfold k0_pay3
  refine (broadcast_apply _ y).trans ?_
  unfold extractAt
  refine (shapeCast_apply _ _ _ (ix1 (0 : Fin 1)) (by
    rw [Shape.rowMajor_val_one, Shape.rowMajor_val_three]; rfl)).trans ?_
  exact colmax_apply v _

end Cert.KernelIdeal.KV

end
-- ==== Proof.AccI.lean ====
/-
  The running row maxima point by point, and the output array after the region. At the grid point (i, j) the left
  block is row tile `i` of the left augmented array and the right block row tile `j` of the right one; so after that
  point the running maximum of row `r` is the larger of zero and the largest inner products of that row with the rows
  of right tiles 0 … j. At the points with j = 3 the kernel stores the largest running maximum of the tile into
  block `i` of the output, which is then written back: the output array ends holding, everywhere in block `i`, tile
  `i`'s maximum.
-/
import proofs.«156121_j21388937134644_2_alg».proof.Proof.PiecesI
import proofs.«156121_j21388937134644_2_alg».proof.Proof.PayI
import proofs.«156121_j21388937134644_2_alg».proof.Proof.KSpec

set_option maxRecDepth 16384

noncomputable section

open scoped BigOperators

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
open Cert.KSpec

variable (m : (ℓ : Loc nD τ sig) → Buf (Elt Ideal) ℓ)

/-- The two augmented arrays as the region finds them. -/
abbrev LA (c : Dev nD) : Aug := V m c main_v8
abbrev RA (c : Dev nD) : Aug := V m c main_v11

/-- The block index maps over the grid: the left operand moves with the row of the grid, the right one with the
    reduction coordinate, the output with the row. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 3) = t.val / 4 ∧ win0_2.index t (1 : Fin 3) = 0 ∧ win0_2.index t (2 : Fin 3) = 0 :=
  (by decide +kernel : ∀ t : Fin grid0.N, _)

/-- The left block at the point (i, j) is row tile `i` of the left array. -/
theorem blk0_apply (c : Dev nD) (i j : Fin 4) (t : Fin cfg0.N) (ht : t.val = 4 * i.val + j.val) (r : Fin 2048) (k : Fin 66) :
    iblk m c 0 t (ix2 r k) = LA m c (ix2 (row i r) k) := by
  show V m c main_v8 (((cfg0.win 0).blk t).view.emb (ix2 r k)) = _
  refine congrArg _ (funext fun a => Fin.ext ?_)
  obtain ⟨e0, e1, -⟩ := idx_facts t
  have hi := i.isLt; have hj := j.isLt
  match a with
  | ⟨0, _⟩ => show win0_0.index t (0 : Fin 2) * 2048 + 1 * r.val = 2048 * i.val + r.val; omega
  | ⟨1, _⟩ => show win0_0.index t (1 : Fin 2) * 66 + 1 * k.val = k.val; omega

/-- The right block at the point (i, j) is row tile `j` of the right array. -/
theorem blk1_apply (c : Dev nD) (i j : Fin 4) (t : Fin cfg0.N) (ht : t.val = 4 * i.val + j.val) (r : Fin 2048) (k : Fin 66) :
    iblk m c 1 t (ix2 r k) = RA m c (ix2 (row j r) k) := by
  show V m c main_v11 (((cfg0.win 1).blk t).view.emb (ix2 r k)) = _
  refine congrArg _ (funext fun a => Fin.ext ?_)
  obtain ⟨-, -, e0, e1, -⟩ := idx_facts t
  have hi := i.isLt; have hj := j.isLt
  match a with
  | ⟨0, _⟩ => show win0_1.index t (0 : Fin 2) * 2048 + 1 * r.val = 2048 * j.val + r.val; omega
  | ⟨1, _⟩ => show win0_1.index t (1 : Fin 2) * 66 + 1 * k.val = k.val; omega

/-- The update at the point (i, j): the larger of the old maximum and the row's largest inner product with tile `j`. -/
theorem upd_apply (c : Dev nD) (i j : Fin 4) (t : Fin cfg0.N) (ht : t.val = 4 * i.val + j.val)
    (a : FVec Ideal S2048x1 .f32) (r : Fin 2048) :
    k0_pay2 (F := Ideal) (iblk m c 0 t) (iblk m c 1 t) a (ix2 r (0 : Fin 1)) = max (a (ix2 r 0)) (tile (LA m c) (RA m c) i j r) := by
  refine (pay2_apply (iblk m c 0 t) (iblk m c 1 t) a r).trans ?_
  refine congrArg (max (a (ix2 r 0))) ?_
  unfold tile kdot
  refine Finset.sup_congr rfl fun col _ => Finset.sum_congr rfl fun k _ => ?_
  rw [blk0_apply m c i j t ht, blk1_apply m c i j t ht]

set_option maxHeartbeats 1000000 in
/-- The running maxima after a first point of a row of the grid, -/
theorem acc_first (c : Dev nD) (t : Fin cfg0.N) (h0 : t.val % 4 = 0) :
    (outsAt0 m c t.val t.isLt).2 = k0_pay2 (F := Ideal) (iblk m c 0 t) (iblk m c 1 t) (k0_pay1 (F := Ideal)) := by
  have h1 : ¬t.val % 4 = 3 := by omega
  rw [outsAt0_A m c t h0 h1]
  dsimp only
  exact sout0_A_0_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

set_option maxHeartbeats 1000000 in
/-- after a later one, -/
theorem acc_step (c : Dev nD) (t : Fin cfg0.N) (h0 : ¬t.val % 4 = 0) :
    (outsAt0 m c t.val t.isLt).2 = k0_pay2 (F := Ideal) (iblk m c 0 t) (iblk m c 1 t)
      (outsAt0 m c (t.val - 1) (Nat.lt_of_le_of_lt (Nat.sub_le _ _) t.isLt)).2 := by
  by_cases h1 : t.val % 4 = 3
  · rw [outsAt0_C m c t h0 h1]
    dsimp only
    exact sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _
  · rw [outsAt0_B m c t h0 h1]
    dsimp only
    exact sout0_B_0_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _

set_option maxHeartbeats 1000000 in
/-- and the output block stored at a last one: the lane splat of the largest running maximum. -/
theorem out_last (c : Dev nD) (t : Fin cfg0.N) (h1 : t.val % 4 = 3) :
    (outsAt0 m c t.val t.isLt).1 = k0_pay3 (F := Ideal) (outsAt0 m c t.val t.isLt).2 := by
  have h0 : ¬t.val % 4 = 0 := by omega
  rw [outsAt0_C m c t h0 h1]
  dsimp only
  exact (out0_C_2_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).trans
    (congrArg (k0_pay3 (F := Ideal)) (sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).symm)

/-- Tile `j`'s contribution by number (−∞ past the grid). -/
def tileN (LA RA : Aug) (i : Fin 4) (n : ℕ) (r : Fin 2048) : EReal :=
  if h : n < 4 then tile LA RA i ⟨n, h⟩ r else ⊥

/-- The running maximum after tiles 0 … n. -/
def accN (T : ℕ → Fin 2048 → EReal) : ℕ → Fin 2048 → EReal
  | 0, r => max 0 (T 0 r)
  | n + 1, r => max (accN T n r) (T (n + 1) r)

theorem rowacc_eq_accN (LA RA : Aug) (i : Fin 4) (r : Fin 2048) : rowacc LA RA i r = accN (tileN LA RA i) 3 r := by
  unfold rowacc
  simp only [accN, tileN]
  rfl

/-- After the point (i, n) the running maximum of row `r` is the maximum over tiles 0 … n, from zero. -/
theorem acc_eq (c : Dev nD) (i : Fin 4) : ∀ (n : ℕ) (hn : n < 4) (t : Fin cfg0.N), t.val = 4 * i.val + n → ∀ r : Fin 2048,
    (outsAt0 m c t.val t.isLt).2 (ix2 r (0 : Fin 1)) = accN (tileN (LA m c) (RA m c) i) n r
  | 0, hn, t, ht, r => by
    rw [acc_first m c t (by omega), upd_apply m c i ⟨0, hn⟩ t ht, pay1_apply]
    show max 0 _ = max 0 (tileN _ _ i 0 r)
    rw [tileN, dif_pos hn]
  | n + 1, hn, t, ht, r => by
    have hN : t.val < 16 := lt_of_lt_of_eq t.isLt (show cfg0.N = 16 from N_0)
    rw [acc_step m c t (by omega), upd_apply m c i ⟨n + 1, hn⟩ t ht]
    have ih := acc_eq c i n (by omega) ⟨t.val - 1, by omega⟩ (by show t.val - 1 = _; omega) r
    show max ((outsAt0 m c (t.val - 1) _).2 (ix2 r 0)) _ = max (accN _ n r) (tileN _ _ i (n + 1) r)
    rw [tileN, dif_pos hn]
    exact congrArg (fun x => max x _) ih

/-- What the output array ends holding: in block `i`, tile `i`'s maximum. -/
def G2 (LA RA : Aug) : S4x1x128.Idx → EReal := fun y => tilemax LA RA ⟨(y 0).val, (y 0).isLt⟩

/-- What a point with j = 3 writes back is its block of that array. -/
theorem flushed2_eq (c : Dev nD) (t : Fin cfg0.N) (hf : (cfg0.win 2).flush t = true) :
    (dats m 0 c).flushed 2 t = ((cfg0.win 2).blk t).view.read (Elt Ideal) (G2 (LA m c) (RA m c)) := by
  have h1 : t.val % 4 = 3 := (flush0_2 t).mp hf
  have hN : t.val < 16 := lt_of_lt_of_eq t.isLt (show cfg0.N = 16 from N_0)
  show (cfg0.win 2).cut (grid0.coords t) ((dats m 0 c).after 2 t) = _
  rw [after0_2, out_last m c t h1]
  obtain ⟨-, -, -, -, e0, -⟩ := idx_facts t
  funext y
  show k0_pay3 (F := Ideal) (outsAt0 m c t.val t.isLt).2 y = G2 (LA m c) (RA m c) (((cfg0.win 2).blk t).view.emb y)
  rw [pay3_apply]
  unfold G2 tilemax
  have hi : t.val / 4 < 4 := by omega
  have hrow : (⟨((((cfg0.win 2).blk t).view.emb y) 0).val, ((((cfg0.win 2).blk t).view.emb y) 0).isLt⟩ : Fin 4) = ⟨t.val / 4, hi⟩ := by
    apply Fin.ext
    show win0_2.index t (0 : Fin 3) * 1 + 1 * (y 0).val = t.val / 4
    have hy : (y 0).val < 1 := (y 0).isLt
    omega
  rw [hrow]
  refine Finset.sup_congr rfl fun r _ => ?_
  rw [rowacc_eq_accN]
  exact acc_eq m c ⟨t.val / 4, hi⟩ 3 (by decide) t (by show t.val = 4 * (t.val / 4) + 3; omega) r

/-- An index is in a point's output block iff each coordinate is in the block's range on its axis. -/
theorem mem_blk2 (t : Fin cfg0.N) (idx : S4x1x128.Idx) :
    idx ∈ ((cfg0.win 2).blk t).view.set ↔ ∀ a : Fin 3, win0_2.index t a * S1x1x128.size a ≤ (idx a).val ∧ (idx a).val < win0_2.index t a * S1x1x128.size a + S1x1x128.size a := by
  show idx ∈ ((View.whole main_v12).slice (win0_2.rect t)).set ↔ _
  rw [View.set_slice_whole, Rect.mem_set_unit]
  exact Iff.rfl

/-- Every index of the output array is in the block of the point (i, 3) of its row. -/
theorem cover2 (idx : S4x1x128.Idx) :
    ∃ t : Fin cfg0.N, (cfg0.win 2).flush t = true ∧ idx ∈ ((cfg0.win 2).blk t).view.set := by
  have h0 : (idx 0).val < 4 := (idx 0).isLt
  have h1 : (idx 1).val < 1 := (idx 1).isLt
  have h2 : (idx 2).val < 128 := (idx 2).isLt
  have hlt : 4 * (idx 0).val + 3 < cfg0.N := by have : cfg0.N = 16 := N_0; omega
  obtain ⟨-, -, -, -, e0, e1, e2⟩ := idx_facts ⟨4 * (idx 0).val + 3, hlt⟩
  have e0' : win0_2.index ⟨4 * (idx 0).val + 3, hlt⟩ (0 : Fin 3) = (4 * (idx 0).val + 3) / 4 := e0
  refine ⟨⟨4 * (idx 0).val + 3, hlt⟩, (flush0_2 _).mpr (by show (4 * (idx 0).val + 3) % 4 = 3; omega), ?_⟩
  rw [mem_blk2]
  intro a
  match a with
  | ⟨0, _⟩ => show win0_2.index _ (0 : Fin 3) * 1 ≤ (idx 0).val ∧ (idx 0).val < win0_2.index _ (0 : Fin 3) * 1 + 1; rw [e0']; omega
  | ⟨1, _⟩ => show win0_2.index _ (1 : Fin 3) * 1 ≤ (idx 1).val ∧ (idx 1).val < win0_2.index _ (1 : Fin 3) * 1 + 1; rw [e1]; omega
  | ⟨2, _⟩ => show win0_2.index _ (2 : Fin 3) * 128 ≤ (idx 2).val ∧ (idx 2).val < win0_2.index _ (2 : Fin 3) * 128 + 128; rw [e2]; omega

/-- The output array after the region. -/
theorem final2 (c : Dev nD) : (dats m 0 c).arrAt 2 cfg0.N = G2 (LA m c) (RA m c) :=
  (dats m 0 c).arrAt_eq_of_cover 2 (G2 (LA m c) (RA m c)) (fun t hf => flushed2_eq m c t hf) cover2

end Cert.KernelIdeal.KV

end
-- ==== Proof.HostAug.lean ====
/-
  The two operand arrays the host builds for the kernel, read at an index. The left one is the concatenation, along
  the columns, of the 8192 × 64 array l, the column of its rows' squared norms and a column of ones; the right one
  is the concatenation of −2 · r, a column of ones and the column of the squared norms of r's rows. A concatenation
  read at column k is the piece whose span of columns holds k — columns 0 to 63, column 64, column 65 — at k less
  the columns before the piece; a column broadcast from a vector of row values is the row's value, and the row value
  here is the sum over the row of the squares, started from zero.
-/
import proofs.«156121_j21388937134644_2_alg».proof.Proof.Gen.KernelIdeal
import proofs.«156121_j21388937134644_2_alg».proof.Proof.KSpec
import proofs.«156121_j21388937134644_2_alg».proof.Proof.Algebra
import Idealize.ShloMosaic.Lib.Pipeline.Value
import Idealize.ShloMosaic.Lib.ValueIdx
import Idealize.ShloMosaic.PureOps.Ideal.Laws

noncomputable section

open scoped BigOperators

namespace Cert.KernelIdeal.HostAug

open Cert.KernelIdeal Cert.KernelIdeal.Gen Idealize.ShloMosaic Idealize.ShloMosaic.ValueIdx

/-- The pattern of 1.0 denotes the extended real 1. -/
theorem ofBits_one : Ideal.ofBits .f32 0x3F800000#32 = (1 : EReal) := by
  simp [Ideal.ofBits, Ideal.ieee, -EReal.coe_mul]; norm_num

/-- The pattern of −2.0 denotes the extended real −2. -/
theorem ofBits_neg_two : Ideal.ofBits .f32 0xC0000000#32 = (-2 : EReal) := by
  simp [Ideal.ofBits, Ideal.ieee, -EReal.coe_mul]; norm_num; norm_cast

/-- The column of squared norms at row n: the sum over the row of the squares. -/
theorem sqcol_apply (x : FVec Ideal S8192x64 .f32) (n : Fin 8192) (i : S8192x1.Idx) (hi : (i 0).val = n.val) :
    broadcastInDim S8192x1 ![0] bcast_S8192_S8192x1_0
      (Host.reduceAdd (mulf x x) (constant (F := Ideal) S_ .f32 0x00000000#32) reducesTo_S8192x64_S8192_d1 h_S_) i
      = Cert.Spec.sqn x n := by
  have hred : S8192x64.Reduces [1] S8192 := by decide
  rw [broadcastInDim_apply _ bcast_S8192_S8192x1_0 _ i (ix1 n) (fun a => match a with
    | ⟨0, _⟩ => by show n.val = if (8192 : Nat) = 1 then 0 else (i 0).val; rw [if_neg (by decide), hi])]
  simp only [Host.reduceAdd, Ideal.hostReduceAdd_def]
  rw [Ideal.hostReduceAdd_single reducesTo_S8192x64_S8192_d1 hred, constant_apply, Ideal.ofBits_zero_f32, zero_add]
  unfold Cert.Spec.sqn
  refine Finset.sum_congr rfl fun k _ => ?_
  have e : hred.lift (ix1 n) k = ix2 n k :=
    funext fun a => Fin.ext (by match a with | ⟨0, _⟩ => rfl | ⟨1, _⟩ => rfl)
  rw [mulf_apply, e]
  rfl

/-- The column of ones at any row. -/
theorem onecol_apply (i : S8192x1.Idx) :
    broadcastInDim S8192x1 ![] bcast_S_S8192x1 (constant (F := Ideal) S_ .f32 0x3F800000#32) i = (1 : EReal) := by
  rw [broadcastInDim_apply _ bcast_S_S8192x1 _ i ix0 (fun a => a.elim0), constant_apply, ofBits_one]

/-- The host's left operand is the augmented left array. -/
theorem augL_eq (l : FVec Ideal S8192x64 .f32) :
    concatenate S8192x66 1 [⟨S8192x64, l⟩,
      ⟨S8192x1, broadcastInDim S8192x1 ![0] bcast_S8192_S8192x1_0
        (Host.reduceAdd (mulf l l) (constant (F := Ideal) S_ .f32 0x00000000#32) reducesTo_S8192x64_S8192_d1 h_S_)⟩,
      ⟨S8192x1, broadcastInDim S8192x1 ![] bcast_S_S8192x1 (constant (F := Ideal) S_ .f32 0x3F800000#32)⟩]
      concatenates_S8192x64_S8192x1_S8192x1_S8192x66_d1 = Cert.KSpec.augL l := by
  funext j
  obtain ⟨n, k, rfl⟩ : ∃ (n : Fin 8192) (k : Fin 66), j = ix2 n k := ⟨j 0, j 1, eq_ix2 j⟩
  by_cases h0 : k.val < 64
  · rw [Cert.KSpec.augL_lt l n k h0]
    exact concatenate_apply_piece 1 _ _ (ix2 n k) 0 (by show (0 : Nat) < 3; omega) S8192x64 l rfl rfl 0 rfl (ix2 n ⟨k.val, h0⟩)
      (fun b hb => by match b with | ⟨0, _⟩ => rfl | ⟨1, _⟩ => exact absurd rfl hb)
      (by show 0 + k.val = k.val; omega)
  · by_cases h1 : k.val = 64
    · rw [Cert.KSpec.augL_64 l n k h1]
      refine (concatenate_apply_piece 1 _ _ (ix2 n k) 1 (by show (1 : Nat) < 3; omega) S8192x1 _ rfl rfl 64 rfl (ix2 n (0 : Fin 1))
        (fun b hb => by match b with | ⟨0, _⟩ => rfl | ⟨1, _⟩ => exact absurd rfl hb)
        (by show 64 + 0 = k.val; omega)).trans ?_
      exact sqcol_apply l n _ rfl
    · have h2 : k.val = 65 := by have := k.isLt; omega
      rw [Cert.KSpec.augL_65 l n k h2]
      refine (concatenate_apply_piece 1 _ _ (ix2 n k) 2 (by show (2 : Nat) < 3; omega) S8192x1 _ rfl rfl 65 rfl (ix2 n (0 : Fin 1))
        (fun b hb => by match b with | ⟨0, _⟩ => rfl | ⟨1, _⟩ => exact absurd rfl hb)
        (by show 65 + 0 = k.val; omega)).trans ?_
      exact onecol_apply _

/-- The array −2 · r at an index. -/
theorem negtwo_apply (r : FVec Ideal S8192x64 .f32) (i : S8192x64.Idx) :
    mulf (broadcastInDim S8192x64 ![] bcast_S_S8192x64 (constant (F := Ideal) S_ .f32 0xC0000000#32)) r i
      = (-2 : EReal) * r i := by
  rw [mulf_apply, broadcastInDim_apply _ bcast_S_S8192x64 _ i ix0 (fun a => a.elim0), constant_apply, ofBits_neg_two]

/-- The host's right operand is the augmented right array. -/
theorem augR_eq (r : FVec Ideal S8192x64 .f32) :
    concatenate S8192x66 1 [⟨S8192x64, mulf (broadcastInDim S8192x64 ![] bcast_S_S8192x64
        (constant (F := Ideal) S_ .f32 0xC0000000#32)) r⟩,
      ⟨S8192x1, broadcastInDim S8192x1 ![] bcast_S_S8192x1 (constant (F := Ideal) S_ .f32 0x3F800000#32)⟩,
      ⟨S8192x1, broadcastInDim S8192x1 ![0] bcast_S8192_S8192x1_0
        (Host.reduceAdd (mulf r r) (constant (F := Ideal) S_ .f32 0x00000000#32) reducesTo_S8192x64_S8192_d1 h_S_)⟩]
      concatenates_S8192x64_S8192x1_S8192x1_S8192x66_d1 = Cert.KSpec.augR r := by
  funext j
  obtain ⟨n, k, rfl⟩ : ∃ (n : Fin 8192) (k : Fin 66), j = ix2 n k := ⟨j 0, j 1, eq_ix2 j⟩
  by_cases h0 : k.val < 64
  · rw [Cert.KSpec.augR_lt r n k h0]
    refine (concatenate_apply_piece 1 _ _ (ix2 n k) 0 (by show (0 : Nat) < 3; omega) S8192x64 _ rfl rfl 0 rfl
      (ix2 n ⟨k.val, h0⟩)
      (fun b hb => by match b with | ⟨0, _⟩ => rfl | ⟨1, _⟩ => exact absurd rfl hb)
      (by show 0 + k.val = k.val; omega)).trans ?_
    exact negtwo_apply r _
  · by_cases h1 : k.val = 64
    · rw [Cert.KSpec.augR_64 r n k h1]
      refine (concatenate_apply_piece 1 _ _ (ix2 n k) 1 (by show (1 : Nat) < 3; omega) S8192x1 _ rfl rfl 64 rfl
        (ix2 n (0 : Fin 1))
        (fun b hb => by match b with | ⟨0, _⟩ => rfl | ⟨1, _⟩ => exact absurd rfl hb)
        (by show 64 + 0 = k.val; omega)).trans ?_
      exact onecol_apply _
    · have h2 : k.val = 65 := by have := k.isLt; omega
      rw [Cert.KSpec.augR_65 r n k h2]
      refine (concatenate_apply_piece 1 _ _ (ix2 n k) 2 (by show (2 : Nat) < 3; omega) S8192x1 _ rfl rfl 65 rfl
        (ix2 n (0 : Fin 1))
        (fun b hb => by match b with | ⟨0, _⟩ => rfl | ⟨1, _⟩ => exact absurd rfl hb)
        (by show 65 + 0 = k.val; omega)).trans ?_
      exact sqcol_apply r n _ rfl

end Cert.KernelIdeal.HostAug

end
-- ==== Proof.Tail.lean ====
/-
  The host's last two operations on the kernel's output array. The array holds, for each of the four row tiles, the
  tile's maximum repeated along its last two axes. The maximum over every position, started from −∞, is the
  supremum of the array's values, which is the supremum of the four tile maxima since every position holds one of
  them and each of them is held somewhere; the square root is then taken.
-/
import proofs.«156121_j21388937134644_2_alg».proof.Proof.Gen.KernelIdeal
import proofs.«156121_j21388937134644_2_alg».proof.Proof.KMax
import Idealize.ShloMosaic.Lib.ValueIdx
import Idealize.ShloMosaic.PureOps.Reduce
import Idealize.ShloMosaic.PureOps.Ideal.Laws

noncomputable section

namespace Cert.KernelIdeal.HostTail

open Cert.KernelIdeal Cert.KernelIdeal.Gen Idealize.ShloMosaic Idealize.ShloMosaic.ValueIdx

/-- A rank-zero result has one position. -/
instance : Subsingleton S_.Idx := ⟨fun a b => funext fun d => d.elim0⟩

/-- The pattern of −∞ denotes the least extended real. -/
theorem ofBits_neg_inf : Ideal.ofBits .f32 0xFF800000#32 = (⊥ : EReal) := by
  simp [Ideal.ofBits, Ideal.ieee]

/-- The maximum of a family over a finite set, started from −∞, is the family's supremum. -/
theorem fold_max_bot_eq_sup {ι : Type} (s : Finset ι) (f : ι → EReal) :
    s.fold (FloatOps.maximumf (F := Ideal) (φ := .f32)) (⊥ : EReal) f = s.sup f := rfl

/-- An array constant along its last two axes has the supremum of its four values. -/
theorem sup_of_const (G : S4x1x128.Idx → EReal) (T : Fin 4 → EReal)
    (hG : ∀ (i : Fin 4) (u : Fin 1) (lane : Fin 128), G (ix3 i u lane) = T i) :
    Finset.univ.sup G = Finset.univ.sup T := by
  refine le_antisymm (Finset.sup_le fun j _ => ?_) (Finset.sup_le fun i _ => ?_)
  · obtain ⟨i, u, lane, rfl⟩ : ∃ (i : Fin 4) (u : Fin 1) (lane : Fin 128), j = ix3 i u lane :=
      ⟨j 0, j 1, j 2, eq_ix3 j⟩
    rw [hG]
    exact Cert.KSpec.le_sup_univ T i
  · rw [← hG i 0 0]
    exact Cert.KSpec.le_sup_univ G (ix3 i 0 0)

/-- The maximum over every position of such an array, then the square root: the square root of the largest of the
    four values. -/
theorem tail_eq (G : FVec Ideal S4x1x128 .f32) (T : Fin 4 → EReal)
    (hG : ∀ (i : Fin 4) (u : Fin 1) (lane : Fin 128), G (ix3 i u lane) = T i) :
    Host.sqrt (F := Ideal) (Host.reduce (FloatOps.maximumf (F := Ideal) (φ := .f32)) G
      (constant (F := Ideal) S_ .f32 0xFF800000#32) reducesTo_S4x1x128_S_d0_1_2 h_S_)
      = fun _ => Ideal.sqrt (Finset.univ.sup T) := by
  funext i
  show FloatOps.hostUnary .sqrt (Host.reduce (FloatOps.maximumf (F := Ideal) (φ := .f32)) G
      (constant (F := Ideal) S_ .f32 0xFF800000#32) reducesTo_S4x1x128_S_d0_1_2 h_S_ i) = _
  rw [Ideal.hostUnary_sqrt_def, Host.reduce_eq_fold, Finset.filter_true_of_mem (fun _ _ => Subsingleton.elim _ _),
    constant_apply, ofBits_neg_inf, fold_max_bot_eq_sup, sup_of_const G T hG]

end Cert.KernelIdeal.HostTail

end
-- ==== Proof.ValueI.lean ====
/-
  The kernel program's result as a function of its two arguments, over the extended reals. The host lines before
  the region build the two augmented arrays; the region leaves, in block `i` of its output, the largest clamped
  inner product of tile `i`'s rows with all rows of the right array; the host lines after it take the largest over
  the output and its square root.
-/
import proofs.«156121_j21388937134644_2_alg».proof.Proof.AccI
import proofs.«156121_j21388937134644_2_alg».proof.Proof.HostAug
import proofs.«156121_j21388937134644_2_alg».proof.Proof.Tail
import Idealize.ShloMosaic.Lib.StableHlo.Run

set_option maxRecDepth 16384

noncomputable section

open scoped BigOperators

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
open Cert.KSpec

variable (m : (ℓ : Loc nD τ sig) → Buf (Elt Ideal) ℓ) (ρ : Dev nD → PrngReg)

/-- The left augmented array the region finds is the first argument's rows, their squared norms, ones. -/
theorem LA_eq (c : Dev nD) : LA m c = augL (m ((c : Thread nD τ).loc main_arg0)) := by
  have e : (V m c main_v8 : S8192x66.Idx → EReal) = concatenate S8192x66 1
      [⟨S8192x64, m ((c : Thread nD τ).loc main_arg0)⟩,
       ⟨S8192x1, broadcastInDim S8192x1 ![0] bcast_S8192_S8192x1_0 (Host.reduceAdd (mulf (m ((c : Thread nD τ).loc main_arg0)) (m ((c : Thread nD τ).loc main_arg0))) (constant (F := Ideal) S_ .f32 0x00000000#32) reducesTo_S8192x64_S8192_d1 h_S_)⟩,
       ⟨S8192x1, broadcastInDim S8192x1 ![] bcast_S_S8192x1 (constant (F := Ideal) S_ .f32 0x3F800000#32)⟩]
      concatenates_S8192x64_S8192x1_S8192x1_S8192x66_d1 := by
    show StableHlo.after hostOps0 (fun b => m (c, b)) (Proc.devRef .tc main_v8) = _
    after_results
    rfl
  exact e.trans (HostAug.augL_eq _)

/-- The right one is minus twice the second argument's rows, ones, their squared norms. -/
theorem RA_eq (c : Dev nD) : RA m c = augR (m ((c : Thread nD τ).loc main_arg1)) := by
  have e : (V m c main_v11 : S8192x66.Idx → EReal) = concatenate S8192x66 1
      [⟨S8192x64, mulf (broadcastInDim S8192x64 ![] bcast_S_S8192x64 (constant (F := Ideal) S_ .f32 0xC0000000#32)) (m ((c : Thread nD τ).loc main_arg1))⟩,
       ⟨S8192x1, broadcastInDim S8192x1 ![] bcast_S_S8192x1 (constant (F := Ideal) S_ .f32 0x3F800000#32)⟩,
       ⟨S8192x1, broadcastInDim S8192x1 ![0] bcast_S8192_S8192x1_0 (Host.reduceAdd (mulf (m ((c : Thread nD τ).loc main_arg1)) (m ((c : Thread nD τ).loc main_arg1))) (constant (F := Ideal) S_ .f32 0x00000000#32) reducesTo_S8192x64_S8192_d1 h_S_)⟩]
      concatenates_S8192x64_S8192x1_S8192x1_S8192x66_d1 := by
    show StableHlo.after hostOps0 (fun b => m (c, b)) (Proc.devRef .tc main_v11) = _
    after_results
    rfl
  exact e.trans (HostAug.augR_eq _)

/-- The result buffer after the three later lines: the square root of the largest tile maximum. -/
theorem out_eq (c : Dev nD) :
    Pipeline.afterTail₀ cfgs (dats m) 0 (V0 m) [hostOps1] c main_v14 = fun _ => kout (LA m c) (RA m c) := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v12)
      = G2 (LA m c) (RA m c) :=
    (Pipeline.withArrays_arr spec0 launch0.win.arr_inj c _ _ 2).trans (final2 m c)
  rw [hw]
  exact HostTail.tail_eq (G2 (LA m c) (RA m c)) (fun i => tilemax (LA m c) (RA m c) i) (fun i u lane => rfl)

/-- The kernel program at the ideal values: it terminates, nothing faults, its result is `kout` of the two augmented
    arguments, and both arguments end unchanged. -/
theorem run_value : θ_run (defs (F := Ideal)) (onTc (τ := τ) (main (F := Ideal))) ⟨m, fun _ => 0, ρ⟩ (fun r => ∀ c : Dev nD,
      r.2.mem ((c.tc : Thread nD τ).loc main_v14)
        = (fun _ => kout (augL (m ((c.tc : Thread nD τ).loc main_arg0))) (augR (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v14 (Pipeline.mem_restRefs_of main_v14 (by decide) (by decide))).trans
        ((out_eq m c).trans (by rw [LA_eq, RA_eq])),
     ((h c).2 main_arg0 (Pipeline.mem_restRefs_of main_arg0 (by decide) (by decide))).trans ((tail_arg0 m (dats m) c).trans (V_main_arg0 m c)),
     ((h c).2 main_arg1 (Pipeline.mem_restRefs_of main_arg1 (by decide) (by decide))).trans ((tail_arg1 m (dats m) c).trans (V_main_arg1 m c))⟩)
    (run_main m ρ)

end Cert.KernelIdeal.KV

end
-- ==== Proof.lean ====
/-
  The largest Euclidean distance between a row of l and a row of r, two 8192 × 64 arrays. Both programs compute
  the square root of the largest, over all 8192 × 8192 pairs of rows, of the squared distance in its Gram form
  ‖l n‖² + ‖r m‖² − 2 ⟨l n, r m⟩ clamped below at zero. The reference forms the Gram matrix by one contraction and
  two broadcast squared norms and takes one maximum over all pairs. The kernel augments the rows to length 66 —
  (l n, ‖l n‖², 1) on the left, (−2 · r m, 1, ‖r m‖²) on the right — so that ONE inner product of augmented rows is
  the Gram form, cuts both row ranges into four tiles of 2048 rows, keeps for each left row a running maximum,
  started at zero, of its inner products with the rows of the four right tiles in turn, and finishes with the
  maximum over the rows of a tile and over the tiles. Two laws join the two sides. With real entries the 66-term
  inner product of the augmented rows IS the Gram form of the squared distance: pulling the factor −2 out of the
  contraction is distributivity, which holds in ℝ and fails at the infinities, so this is where the precondition
  that every entry is finite is used. And a maximum of maxima over tiles, started at zero, is the maximum over all
  pairs of the values clamped at zero: a supremum of a finite family is its least upper bound, and every pair of
  rows lies in exactly one pair of tiles.
-/
import proofs.«156121_j21388937134644_2_alg».proof.Defs
import proofs.«156121_j21388937134644_2_alg».proof.Proof.Gen.Kernel
import proofs.«156121_j21388937134644_2_alg».proof.Proof.Gen.KernelIdeal
import proofs.«156121_j21388937134644_2_alg».proof.Proof.Gen.ReferenceIdeal
import proofs.«156121_j21388937134644_2_alg».proof.Proof.Gen.Pre_finite_inputs
import proofs.«156121_j21388937134644_2_alg».proof.Proof.Gen.ReferenceIdeal.Run
import proofs.«156121_j21388937134644_2_alg».proof.Proof.Gen.ReferenceIdeal.Read
import proofs.«156121_j21388937134644_2_alg».proof.Proof.FrameK
import proofs.«156121_j21388937134644_2_alg».proof.Proof.FrameI
import proofs.«156121_j21388937134644_2_alg».proof.Proof.RefValue
import proofs.«156121_j21388937134644_2_alg».proof.Proof.Finite
import proofs.«156121_j21388937134644_2_alg».proof.Proof.Algebra
import proofs.«156121_j21388937134644_2_alg».proof.Proof.ValueI

noncomputable section

open Idealize.ShloMosaic Idealize.ShloMosaic.TcCoe Idealize.SL.Sem

namespace Cert.Proof

/-- The kernel program as printed terminates, faults nowhere and leaves both arguments unchanged. -/
theorem frame_p : Cert.frame_Kernel := fun m ρ _ => Cert.Kernel.Fr.frame m ρ
/-- So does its reading at the ideal values. -/
theorem frame_pi : Cert.frame_KernelIdeal := fun m ρ _ => Cert.KernelIdeal.Fr.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, which are finite, both programs end with the specification's value. -/
theorem algebraic : Cert.algebraic_KernelIdeal_ReferenceIdeal := by
  intro m ρ m' ρ' hpre hagree
  refine ⟨fun c => fun _ => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.KV.run_value m ρ)
    obtain ⟨hl, hr⟩ := Cert.Finite.finite_of_pre m hpre c
    exact funext fun _ => Cert.KSpec.kout_aug _ _ hl hr
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.ReferenceIdeal.RefValue.ref_eq_spec,
      (hagree c).1, (hagree c).2]
    rfl

/-- The five claims together; the idealization rewrote nothing, so its claim is trivial. -/
theorem claim : Cert.Claim := ⟨Cert.Kernel.Gen.facts, Cert.KernelIdeal.Gen.facts, Cert.ReferenceIdeal.Gen.facts,
  Cert.Pre_finite_inputs.Gen.facts, frame_p, frame_pi, frame_ri, trivial, algebraic⟩

end Cert.Proof

end
